-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S384x128 .f32) (main_arg8 : FVec F S128 .f32) (main_arg9 : FVec F S128x128 .f32) (main_arg10 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S384x128 .f32 := Host.absf main_arg7
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : FVec F S100000x128 .f32) (main_arg1 : IVec S2x500000 32) (main_arg2 : IVec S2x500000 32) (main_arg3 : IVec S2x500000 32) (main_arg4 : FVec F S3x128x128 .f32) (main_arg5 : FVec F S3x128 .f32) (main_arg6 : FVec F S3x128x128 .f32) (main_arg7 : FVec F S384x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_v13 main_v16
-- ==== Kernel.lean ====
abbrev S100000x128 : Shape := ⟨2, ![100000, 128]⟩
abbrev S2x500000 : Shape := ⟨2, ![2, 500000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S2000x128 : Shape := ⟨2, ![2000, 128]⟩
abbrev S2000x1 : Shape := ⟨2, ![2000, 1]⟩
abbrev S1x128x128 : Shape := ⟨3, ![1, 128, 128]⟩
abbrev S1x128 : Shape := ⟨2, ![1, 128]⟩
abbrev S2000x384 : Shape := ⟨2, ![2000, 384]⟩

abbrev nBuf : Space → Nat
  | .hbm => 88
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S2x500000, .i32⟩
  | .hbm, ⟨3, _⟩ => ⟨S2x500000, .i32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .f32⟩
  | .hbm, ⟨25, _⟩ => ⟨S100000x128, .f32⟩
  | .hbm, ⟨26, _⟩ => ⟨S500000x1, .i32⟩
  | .hbm, ⟨27, _⟩ => ⟨S100000x128, .f32⟩
  | .hbm, ⟨28, _⟩ => ⟨S_, .f32⟩
  | .hbm, ⟨29, _⟩ => ⟨S500000, .f32⟩
  | .hbm, ⟨30, _⟩ => ⟨S_, .f32⟩
  | .hbm, ⟨31, _⟩ => ⟨S100000, .f32⟩
  | .hbm, ⟨32, _⟩ => ⟨S500000x1, .i32⟩
  | .hbm, ⟨33, _⟩ => ⟨S100000, .f32⟩
  | .hbm, ⟨34, _⟩ => ⟨S100000x1, .f32⟩
  | .hbm, ⟨35, _⟩ => ⟨S1x500000, .i32⟩
  | .hbm, ⟨36, _⟩ => ⟨S500000, .i32⟩
  | .hbm, ⟨37, _⟩ => ⟨S1x500000, .i32⟩
  | .hbm, ⟨38, _⟩ => ⟨S500000, .i32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S_, .f32⟩
  | .hbm, ⟨49, _⟩ => ⟨S100000x128, .f32⟩
  | .hbm, ⟨50, _⟩ => ⟨S500000x1, .i32⟩
  | .hbm, ⟨51, _⟩ => ⟨S100000x128, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S100000, .f32⟩
  | .hbm, ⟨56, _⟩ => ⟨S500000x1, .i32⟩
  | .hbm, ⟨57, _⟩ => ⟨S100000, .f32⟩
  | .hbm, ⟨58, _⟩ => ⟨S100000x1, .f32⟩
  | .hbm, ⟨59, _⟩ => ⟨S1x500000, .i32⟩
  | .hbm, ⟨60, _⟩ => ⟨S500000, .i32⟩
  | .hbm, ⟨61, _⟩ => ⟨S1x500000, .i32⟩
  | .hbm, ⟨62, _⟩ => ⟨S500000, .i32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x128, .f32⟩
  | .hbm, ⟨72, _⟩ => ⟨S_, .f32⟩
  | .hbm, ⟨73, _⟩ => ⟨S100000x128, .f32⟩
  | .hbm, ⟨74, _⟩ => ⟨S500000x1, .i32⟩
  | .hbm, ⟨75, _⟩ => ⟨S100000x128, .f32⟩
  | .hbm, ⟨76, _⟩ => ⟨S_, .f32⟩
  | .hbm, ⟨77, _⟩ => ⟨S500000, .f32⟩
  | .hbm, ⟨78, _⟩ => ⟨S_, .f32⟩
  | .hbm, ⟨79, _⟩ => ⟨S100000, .f32⟩
  | .hbm, ⟨80, _⟩ => ⟨S500000x1, .i32⟩
  | .hbm, ⟨81, _⟩ => ⟨S100000, .f32⟩
  | .hbm, ⟨82, _⟩ => ⟨S100000x1, .f32⟩
  | .hbm, ⟨83, _⟩ => ⟨S3x128x128, .bf16⟩
  | .hbm, ⟨84, _⟩ => ⟨S3x128x128, .bf16⟩
  | .hbm, ⟨85, _⟩ => ⟨S384x128, .bf16⟩
  | .hbm, ⟨86, _⟩ => ⟨S128x128, .bf16⟩
  | .hbm, ⟨87, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S3x128x128, .bf16⟩
  | .local _ .vmem, ⟨15, _⟩ => ⟨S3x128, .f32⟩
  | .local _ .vmem, ⟨16, _⟩ => ⟨S3x128x128, .bf16⟩
  | .local _ .vmem, ⟨17, _⟩ => ⟨S384x128, .bf16⟩
  | .local _ .vmem, ⟨18, _⟩ => ⟨S128, .f32⟩
  | .local _ .vmem, ⟨19, _⟩ => ⟨S128x128, .bf16⟩
  | .local _ .vmem, ⟨20, _⟩ => ⟨S128, .f32⟩
  | .local _ .vmem, ⟨21, _⟩ => ⟨S2000x128, .f32⟩
  | .local _ .vmem, ⟨22, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x128_S2000x128_1_0_0_1_n_n_wf : DotDims.WF S2000x128 S128x128 S2000x128 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S100000x1.size a
  hwx0_6 : ∀ i : grid0.Coords, EltTy.bits .f32 = 32 ∨ (Rect.block (s := S100000x1) S2000x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128x128.size a ≤ S3x128x128.size a
  hwx0_7 : ∀ i : grid0.Coords, EltTy.bits .bf16 = 32 ∨ (Rect.block (s := S3x128x128) S3x128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x128.size a ≤ S3x128.size a
  hwx0_8 : ∀ i : grid0.Coords, EltTy.bits .f32 = 32 ∨ (Rect.block (s := S3x128) S3x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128x128.size a ≤ S3x128x128.size a
  hwx0_9 : ∀ i : grid0.Coords, EltTy.bits .bf16 = 32 ∨ (Rect.block (s := S3x128x128) S3x128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x128.size a ≤ S384x128.size a
  hwx0_10 : ∀ i : grid0.Coords, EltTy.bits .bf16 = 32 ∨ (Rect.block (s := S384x128) S384x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S100000x128.size a
  hwx0_14 : ∀ i : grid0.Coords, EltTy.bits .f32 = 32 ∨ (Rect.block (s := S100000x128) S2000x128.size (cc0_transform_14 i) (hinb0_14 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v56) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v57) S3x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S3x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v58) S3x128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v59) S384x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v60) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v61) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S1x128x128 : Shape := ⟨3, ![1, 128, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x384 : Shape := ⟨2, ![100000, 384]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x500000, .i32⟩
  | 2 => ⟨S2x500000, .i32⟩
  | 3 => ⟨S2x500000, .i32⟩
  | 4 => ⟨S3x128x128, .f32⟩
  | 5 => ⟨S3x128, .f32⟩
  | 6 => ⟨S3x128x128, .f32⟩
  | 7 => ⟨S384x128, .f32⟩
  | 8 => ⟨S128, .f32⟩
  | 9 => ⟨S128x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S1x500000, .i32⟩
  | 18 => ⟨S500000, .i32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S100000x128, .f32⟩
  | 32 => ⟨S500000x1, .i32⟩
  | 33 => ⟨S100000x128, .f32⟩
  | 34 => ⟨S_, .f32⟩
  | 35 => ⟨S500000, .f32⟩
  | 36 => ⟨S_, .f32⟩
  | 37 => ⟨S100000, .f32⟩
  | 38 => ⟨S500000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x500000, .i32⟩
  | 59 => ⟨S500000, .i32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S_, .f32⟩
  | 72 => ⟨S100000x128, .f32⟩
  | 73 => ⟨S500000x1, .i32⟩
  | 74 => ⟨S100000x128, .f32⟩
  | 75 => ⟨S_, .f32⟩
  | 76 => ⟨S500000, .f32⟩
  | 77 => ⟨S_, .f32⟩
  | 78 => ⟨S100000, .f32⟩
  | 79 => ⟨S500000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x500000, .i32⟩
  | 100 => ⟨S500000, .i32⟩
  | 101 => ⟨S1x500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S_, .f32⟩
  | 113 => ⟨S100000x128, .f32⟩
  | 114 => ⟨S500000x1, .i32⟩
  | 115 => ⟨S100000x128, .f32⟩
  | 116 => ⟨S_, .f32⟩
  | 117 => ⟨S500000, .f32⟩
  | 118 => ⟨S_, .f32⟩
  | 119 => ⟨S100000, .f32⟩
  | 120 => ⟨S500000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S100000x128, .f32⟩
  | 5 => ⟨S100000x128, .f32⟩
  | 6 => ⟨S100000x384, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_4 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_10 : Ref sig .tc := ⟨.hbm, 103, rfl⟩
abbrev main_v80 : Ref sig .tc := ⟨.hbm, 104, rfl⟩
abbrev main_v81 : Ref sig .tc := ⟨.hbm, 105, rfl⟩
abbrev main_c_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_13 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_call0_cst : Ref sig .tc := ⟨.hbm, 139, rfl⟩
abbrev main_call0_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S100000x384_S384x128_S100000x128_1_0_0_1_n_n_wf : DotDims.WF S100000x384 S384x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.Sage.lean ====
/-
  The relation summariser, entry by entry, over the extended reals.

  For each of three relations r a node p averages the feature rows of its in-neighbours: the sum S_r(p, ·) of those
  rows divided by max(cnt_r(p), 1), cnt_r(p) the number of in-neighbours. The relation's layer is

      rel_r(p, j) = (Σ_c S_r(p, c) / max(cnt_r(p), 1) · Wl_r(c, j) + bl_r(j)) + Σ_c x(p, c) · Wr_r(c, j).

  The three layers are laid side by side, 384 columns, and go through two dense layers with a rectifier between:

      h(p, k) = max(Σ_q joined(p, q) · P1(q, k) + b1(k), 0),     out(p, j) = Σ_k h(p, k) · P2(k, j) + b2(j).

  Everything is stated over functions of coordinates (a node p, a column j), for any number N of nodes: row p of the
  result depends on row p of x, of the sums and of the counts only, so the same formula serves a block of rows and the
  whole array.
-/
import Idealize.ShloMosaic.PureOps.Ideal

noncomputable section

open scoped BigOperators

namespace Cert.Sage

open Idealize.ShloMosaic

/-- The number one, as the single-precision word both programs write. -/
abbrev one : EReal := Ideal.ofBits .f32 0x3F800000#32
/-- The number zero, as the single-precision word both programs write. -/
abbrev zero : EReal := Ideal.ofBits .f32 0x00000000#32

/-- One relation's layer at node `p`, column `j`: the mean of the neighbours' rows through `Wl`, plus the bias, plus
    the node's own row through `Wr`. -/
def rel {N : ℕ} (x S : Fin N → Fin 128 → EReal) (cnt : Fin N → EReal) (Wl : Fin 128 → Fin 128 → EReal)
    (bl : Fin 128 → EReal) (Wr : Fin 128 → Fin 128 → EReal) (p : Fin N) (j : Fin 128) : EReal :=
  (∑ c : Fin 128, Ideal.div (S p c) (max (cnt p) one) * Wl c j + bl j) + ∑ c : Fin 128, x p c * Wr c j

/-- Three 128-column arrays side by side: column `k` of the result is column `k`, `k - 128` or `k - 256` of the first,
    second or third. -/
def joined {N : ℕ} (a b c : Fin N → Fin 128 → EReal) (p : Fin N) (k : Fin 384) : EReal :=
  if h : k.val < 128 then a p ⟨k.val, h⟩
  else if h2 : k.val < 256 then b p ⟨k.val - 128, by omega⟩
  else c p ⟨k.val - 256, by omega⟩

/-- The two dense layers with the rectifier between them. -/
def mlp {N : ℕ} (u : Fin N → Fin 384 → EReal) (P1 : Fin 384 → Fin 128 → EReal) (b1 : Fin 128 → EReal)
    (P2 : Fin 128 → Fin 128 → EReal) (b2 : Fin 128 → EReal) (p : Fin N) (j : Fin 128) : EReal :=
  ∑ k : Fin 128, max (∑ q : Fin 384, u p q * P1 q k + b1 k) zero * P2 k j + b2 j

/-- The whole summariser at node `p`, column `j`. `Wl`, `bl`, `Wr` give each relation its weights. -/
def out {N : ℕ} (x S0 S1 S2 : Fin N → Fin 128 → EReal) (c0 c1 c2 : Fin N → EReal)
    (Wl : Fin 3 → Fin 128 → Fin 128 → EReal) (bl : Fin 3 → Fin 128 → EReal) (Wr : Fin 3 → Fin 128 → Fin 128 → EReal)
    (P1 : Fin 384 → Fin 128 → EReal) (b1 : Fin 128 → EReal) (P2 : Fin 128 → Fin 128 → EReal) (b2 : Fin 128 → EReal)
    (p : Fin N) (j : Fin 128) : EReal :=
  mlp (joined (rel x S0 c0 (Wl 0) (bl 0) (Wr 0)) (rel x S1 c1 (Wl 1) (bl 1) (Wr 1)) (rel x S2 c2 (Wl 2) (bl 2) (Wr 2)))
    P1 b1 P2 b2 p j

/-- Row `y` of the summariser on a block of rows is row `ρ y` of the summariser on the whole array, when the block's
    rows are the rows `ρ` picks. -/
theorem out_rows {N R : ℕ} (ρ : Fin R → Fin N) (x S0 S1 S2 : Fin N → Fin 128 → EReal) (c0 c1 c2 : Fin N → EReal)
    (Wl : Fin 3 → Fin 128 → Fin 128 → EReal) (bl : Fin 3 → Fin 128 → EReal) (Wr : Fin 3 → Fin 128 → Fin 128 → EReal)
    (P1 : Fin 384 → Fin 128 → EReal) (b1 : Fin 128 → EReal) (P2 : Fin 128 → Fin 128 → EReal) (b2 : Fin 128 → EReal)
    (y : Fin R) (j : Fin 128) :
    out (fun y c => x (ρ y) c) (fun y c => S0 (ρ y) c) (fun y c => S1 (ρ y) c) (fun y c => S2 (ρ y) c)
        (fun y => c0 (ρ y)) (fun y => c1 (ρ y)) (fun y => c2 (ρ y)) Wl bl Wr P1 b1 P2 b2 y j
      = out x S0 S1 S2 c0 c1 c2 Wl bl Wr P1 b1 P2 b2 (ρ y) j := rfl

end Cert.Sage

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  What the kernel computes on one block of 2000 rows, entry by entry.

  The body reads a block of 2000 rows of x, of the three neighbour sums and of the three neighbour counts (one column
  each), and the weights whole. On the extended reals a change of float format is the identity and a product into an
  accumulator of zeros is the plain sum over the contracted coordinate, so entry (y, j) of what the body stores is the
  summariser's formula on the block: the three relation layers from the block's rows, laid side by side, through the two
  dense layers.
-/
import proofs.«175074_j798863917140_2_alg».proof.Proof.Gen.KernelIdeal.Skeleton
import proofs.«175074_j798863917140_2_alg».proof.Proof.Sage
import proofs.«175074_j798863917140_2_alg».proof.Proof.LibPlainMatmul
import proofs.«175074_j798863917140_2_alg».proof.Proof.LibConcatRead
import proofs.«175074_j798863917140_2_alg».proof.Proof.LibColumnBroadcast
import Idealize.ShloMosaic.Lib.ValueLayout
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

variable [Cert.KernelIdeal.Facts]

/-! ## The layout operations of the body, read at an entry -/

/-- A 2000 × 128 by 128 × 128 product into zeros at `(y, j)`: the sum over the 128 contracted coordinates. -/
theorem prod128 {φ₁ φ₂ : FTy} (A : FVec Ideal S2000x128 φ₁) (B : FVec Ideal S128x128 φ₂) (y : Fin 2000) (j : Fin 128) :
    matmul dot_S2000x128_S128x128_S2000x128_1_0_0_1_n_n none A B (constant S2000x128 .f32 0x00000000#32) (ix2 y j)
      = ∑ c : Fin 128, A (ix2 y c) * B (ix2 c j) :=
  matmul_plain_zero_apply dot_S2000x128_S128x128_S2000x128_1_0_0_1_n_n.wf none A B y j

/-- A 2000 × 384 by 384 × 128 product into zeros at `(y, j)`: the sum over the 384 contracted coordinates. -/
theorem prod384 {φ₁ φ₂ : FTy} (A : FVec Ideal S2000x384 φ₁) (B : FVec Ideal S384x128 φ₂) (y : Fin 2000) (j : Fin 128) :
    matmul dot_S2000x384_S384x128_S2000x128_1_0_0_1_n_n none A B (constant S2000x128 .f32 0x00000000#32) (ix2 y j)
      = ∑ c : Fin 384, A (ix2 y c) * B (ix2 c j) :=
  matmul_plain_zero_apply dot_S2000x384_S384x128_S2000x128_1_0_0_1_n_n.wf none A B y j

/-- One column repeated over 128: entry `(y, c)` is the column's entry at row `y`. -/
theorem column_apply {α : Type} (v : S2000x1.Idx → α) (y : Fin 2000) (c : Fin 128) :
    broadcastTo S2000x128 v broadcasts_S2000x1_S2000x128 (ix2 y c) = v (ix2 y (0 : Fin 1)) :=
  broadcastTo_a1_ab_apply v broadcasts_S2000x1_S2000x128 y c

/-- A bias row, taken out of its one-row matrix and put back, then repeated down the 2000 rows: entry `(y, j)` is
    the row's entry `j`. -/
theorem bias_apply {α : Type} (b : S1x128.Idx → α) (y : Fin 2000) (j : Fin 128) :
    broadcastTo S2000x128 (shapeCast S1x128 (shapeCast S128 b shapeCasts_S1x128_S128) shapeCasts_S128_S1x128)
        broadcasts_S1x128_S2000x128 (ix2 y j) = b (ix2 (0 : Fin 1) j) := by
  rw [broadcastTo_1b_ab_apply _ broadcasts_S1x128_S2000x128 y j,
    shapeCast_a_1a_apply _ shapeCasts_S128_S1x128 (0 : Fin 1) j, shapeCast_1a_a_apply b shapeCasts_S1x128_S128 j]

/-- A bias vector made a one-row matrix and repeated down the 2000 rows: entry `(y, j)` is the vector's entry `j`. -/
theorem bias_vec_apply {α : Type} (b : S128.Idx → α) (y : Fin 2000) (j : Fin 128) :
    broadcastTo S2000x128 (shapeCast S1x128 b shapeCasts_S128_S1x128) broadcasts_S1x128_S2000x128 (ix2 y j) = b (ix1 j) := by
  rw [broadcastTo_1b_ab_apply _ broadcasts_S1x128_S2000x128 y j, shapeCast_a_1a_apply b shapeCasts_S128_S1x128 (0 : Fin 1) j]

/-- One relation's 128 × 128 weights, taken out of a one-plane stack: entry `(c, j)` is the plane's. -/
theorem plane_apply {α : Type} (w : S1x128x128.Idx → α) (c j : Fin 128) :
    shapeCast S128x128 w shapeCasts_S1x128x128_S128x128 (ix2 c j) = w (ix3 (0 : Fin 1) c j) :=
  shapeCast_1ab_ab_apply w shapeCasts_S1x128x128_S128x128 c j

/-! ## One relation's layer -/

/-- One relation's layer as the body computes it from a block of x (narrowed), a block of neighbour sums, the
    column of denominators, and the relation's weights: entry `(y, j)`. -/
theorem layer_apply (xt : FVec Ideal S2000x128 .bf16) (S : FVec Ideal S2000x128 .f32) (den : FVec Ideal S2000x1 .f32)
    (wl wr : Vec Ideal S1x128x128 .bf16) (bv : Vec Ideal S1x128 .f32) (y : Fin 2000) (j : Fin 128) :
    addf (addf (matmul dot_S2000x128_S128x128_S2000x128_1_0_0_1_n_n none
            (truncf .bf16 (divf S (broadcastTo S2000x128 den broadcasts_S2000x1_S2000x128)) bitsLt_bf16_f32)
            (shapeCast S128x128 wl shapeCasts_S1x128x128_S128x128 : FVec Ideal S128x128 .bf16) (constant S2000x128 .f32 0x00000000#32))
          (broadcastTo S2000x128 (shapeCast S1x128 (shapeCast S128 bv shapeCasts_S1x128_S128) shapeCasts_S128_S1x128)
            broadcasts_S1x128_S2000x128))
        (matmul dot_S2000x128_S128x128_S2000x128_1_0_0_1_n_n none xt
          (shapeCast S128x128 wr shapeCasts_S1x128x128_S128x128 : FVec Ideal S128x128 .bf16) (constant S2000x128 .f32 0x00000000#32)) (ix2 y j)
      = (∑ c : Fin 128, Ideal.div (S (ix2 y c)) (den (ix2 y (0 : Fin 1))) * wl (ix3 (0 : Fin 1) c j) + bv (ix2 (0 : Fin 1) j))
        + ∑ c : Fin 128, xt (ix2 y c) * wr (ix3 (0 : Fin 1) c j) := by
  rw [addf_apply, addf_apply, prod128, prod128, bias_apply]
  simp only [truncf_apply, divf_apply, column_apply, plane_apply]

/-- The first relation's layer, as the body computes it from what it loads. -/
theorem first_layer_apply (v0 v2 : Vec Ideal S2000x128 .f32) (v8 : Vec Ideal S2000x1 .f32) (v19 v21 : Vec Ideal S1x128x128 .bf16)
    (v23 : Vec Ideal S1x128 .f32) (y : Fin 2000) (j : Fin 128) :
    k0_pay6 (F := Ideal) v0 v2 v8 v19 v21 v23 (ix2 y j)
      = Sage.rel (fun y c => v0 (ix2 y c)) (fun y c => v2 (ix2 y c)) (fun y => v8 (ix2 y (0 : Fin 1)))
          (fun c j => v19 (ix3 (0 : Fin 1) c j)) (fun j => v23 (ix2 (0 : Fin 1) j)) (fun c j => v21 (ix3 (0 : Fin 1) c j)) y j := by
  unfold k0_pay6 k0_pay2
  simp only [shapeCast_self]
  rw [layer_apply]
  rfl

/-! ## The three layers side by side -/

/-- Three 2000 × 128 blocks joined along the columns, at `(y, k)`. -/
theorem joined_apply (A B C : FVec Ideal S2000x128 .f32) (y : Fin 2000) (k : Fin 384) :
    concatenate S2000x384 1 [⟨S2000x128, A⟩, ⟨S2000x128, B⟩, ⟨S2000x128, C⟩]
        concatenates_S2000x128_S2000x128_S2000x128_S2000x384_d1 (ix2 y k)
      = Sage.joined (fun y j => A (ix2 y j)) (fun y j => B (ix2 y j)) (fun y j => C (ix2 y j)) y k := by
  unfold Sage.joined
  split_ifs with h h2
  · exact concat3_cols_first A B C concatenates_S2000x128_S2000x128_S2000x128_S2000x384_d1 y ⟨k.val, h⟩ k rfl
  · exact concat3_cols_second A B C concatenates_S2000x128_S2000x128_S2000x128_S2000x384_d1 y ⟨k.val - 128, by omega⟩ k
      (by show k.val = 128 + (k.val - 128); omega)
  · exact concat3_cols_third A B C concatenates_S2000x128_S2000x128_S2000x128_S2000x384_d1 y ⟨k.val - 256, by omega⟩ k
      (by show k.val = 128 + 128 + (k.val - 256); omega)

/-- The joined layers, as the body computes them: the first layer given, the other two from the blocks. -/
theorem joined_layers_apply (v1 : FVec Ideal S2000x128 .bf16) (v5 v7 : FVec Ideal S2000x128 .f32) (v13 : FVec Ideal S2000x1 .f32)
    (v30 : FVec Ideal S2000x128 .f32) (v32 : FVec Ideal S2000x1 .f32) (v36 v38 : Vec Ideal S1x128x128 .bf16) (v40 : Vec Ideal S1x128 .f32)
    (v53 v55 : Vec Ideal S1x128x128 .bf16) (v57 : Vec Ideal S1x128 .f32) (y : Fin 2000) (k : Fin 384) :
    k0_pay8 (F := Ideal) v1 v5 v7 v13 v30 v32 v36 v38 v40 v53 v55 v57 (ix2 y k)
      = Sage.joined (fun y j => v30 (ix2 y j))
          (fun y j => (∑ c : Fin 128, Ideal.div (v5 (ix2 y c)) (v32 (ix2 y (0 : Fin 1))) * v36 (ix3 (0 : Fin 1) c j) + v40 (ix2 (0 : Fin 1) j))
            + ∑ c : Fin 128, v1 (ix2 y c) * v38 (ix3 (0 : Fin 1) c j))
          (fun y j => (∑ c : Fin 128, Ideal.div (v7 (ix2 y c)) (max (v13 (ix2 y (0 : Fin 1))) Sage.one) * v53 (ix3 (0 : Fin 1) c j) + v57 (ix2 (0 : Fin 1) j))
            + ∑ c : Fin 128, v1 (ix2 y c) * v55 (ix3 (0 : Fin 1) c j)) y k := by
  unfold k0_pay8
  simp only [truncf_apply, joined_apply, layer_apply]
  rfl

/-! ## The two dense layers -/

/-- The two dense layers with the rectifier between, as the body computes them. -/
theorem dense_apply (v66 : FVec Ideal S2000x384 .bf16) (v68 : FVec Ideal S384x128 .bf16) (v70 : Vec Ideal S128 .f32)
    (v77 : Vec Ideal S128x128 .bf16) (v80 : Vec Ideal S128 .f32) (y : Fin 2000) (j : Fin 128) :
    k0_pay1 (F := Ideal) v66 v68 (constant S2000x128 .f32 0x00000000#32) v70 v77 v80 (ix2 y j)
      = Sage.mlp (fun y q => v66 (ix2 y q)) (fun q k => v68 (ix2 q k)) (fun k => v70 (ix1 k)) (fun k j => v77 (ix2 k j))
          (fun j => v80 (ix1 j)) y j := by
  unfold k0_pay1
  simp only [shapeCast_self]
  rw [addf_apply, prod128, bias_vec_apply]
  simp only [truncf_apply, maximumf_apply, addf_apply, prod384, bias_vec_apply]
  rfl

end Cert.KernelIdeal.Body

end
-- ==== Proof.KernelBlock.lean ====
/-
  What the kernel leaves in one output block, entry by entry, from the blocks it was handed.

  The body loads the seven row blocks whole, and of the two weight stacks and the bias table one relation's plane or
  row at a time; it stores one 2000 × 128 block. Entry (y, j) of that block is the summariser's formula on the row
  blocks, with each relation's weights read from its plane.
-/
import proofs.«175074_j798863917140_2_alg».proof.Proof.Gen.KernelIdeal.Frame
import proofs.«175074_j798863917140_2_alg».proof.Proof.KernelBody

noncomputable section

open scoped BigOperators

namespace Cert.KernelIdeal.Body

open Cert.KernelIdeal Cert.KernelIdeal.Gen Idealize.ShloMosaic Idealize.ShloMosaic.ValueIdx

variable [Cert.KernelIdeal.Facts]

theorem zeros1 : (![0] : Fin 1 → Nat) = fun _ => 0 := funext fun a => by fin_cases a; rfl
theorem zeros2 : (![0, 0] : Fin 2 → Nat) = fun _ => 0 := funext fun a => by fin_cases a <;> rfl

/-! ## One relation's plane of a weight stack, one relation's row of the bias table -/

section planes
variable {Val : EltTy → Type} {e : EltTy}

theorem plane0 (X : S3x128x128.Idx → Val e) (c j : Fin 128) : View.ld X r0_2 (ix3 (0 : Fin 1) c j) = X (ix3 (0 : Fin 3) c j) := by
  show X (r0_2.emb (ix3 (0 : Fin 1) c j)) = _
  refine congrArg X (funext fun a => Fin.ext ?_)
  match a with
  | ⟨0, _⟩ => rfl
  | ⟨1, _⟩ => show 0 + 1 * c.val = c.val; omega
  | ⟨2, _⟩ => show 0 + 1 * j.val = j.val; omega

theorem plane1 (X : S3x128x128.Idx → Val e) (c j : Fin 128) : View.ld X r0_4 (ix3 (0 : Fin 1) c j) = X (ix3 (1 : Fin 3) c j) := by
  show X (r0_4.emb (ix3 (0 : Fin 1) c j)) = _
  refine congrArg X (funext fun a => Fin.ext ?_)
  match a with
  | ⟨0, _⟩ => rfl
  | ⟨1, _⟩ => show 0 + 1 * c.val = c.val; omega
  | ⟨2, _⟩ => show 0 + 1 * j.val = j.val; omega

theorem plane2 (X : S3x128x128.Idx → Val e) (c j : Fin 128) : View.ld X r0_6 (ix3 (0 : Fin 1) c j) = X (ix3 (2 : Fin 3) c j) := by
  show X (r0_6.emb (ix3 (0 : Fin 1) c j)) = _
  refine congrArg X (funext fun a => Fin.ext ?_)
  match a with
  | ⟨0, _⟩ => rfl
  | ⟨1, _⟩ => show 0 + 1 * c.val = c.val; omega
  | ⟨2, _⟩ => show 0 + 1 * j.val = j.val; omega

theorem row0 (X : S3x128.Idx → Val e) (j : Fin 128) : View.ld X r0_3 (ix2 (0 : Fin 1) j) = X (ix2 (0 : Fin 3) j) := by
  show X (r0_3.emb (ix2 (0 : Fin 1) j)) = _
  refine congrArg X (funext fun a => Fin.ext ?_)
  match a with
  | ⟨0, _⟩ => rfl
  | ⟨1, _⟩ => show 0 + 1 * j.val = j.val; omega

theorem row1 (X : S3x128.Idx → Val e) (j : Fin 128) : View.ld X r0_5 (ix2 (0 : Fin 1) j) = X (ix2 (1 : Fin 3) j) := by
  show X (r0_5.emb (ix2 (0 : Fin 1) j)) = _
  refine congrArg X (funext fun a => Fin.ext ?_)
  match a with
  | ⟨0, _⟩ => rfl
  | ⟨1, _⟩ => show 0 + 1 * j.val = j.val; omega

theorem row2 (X : S3x128.Idx → Val e) (j : Fin 128) : View.ld X r0_7 (ix2 (0 : Fin 1) j) = X (ix2 (2 : Fin 3) j) := by
  show X (r0_7.emb (ix2 (0 : Fin 1) j)) = _
  refine congrArg X (funext fun a => Fin.ext ?_)
  match a with
  | ⟨0, _⟩ => rfl
  | ⟨1, _⟩ => show 0 + 1 * j.val = j.val; omega

end planes

/-! ## The block -/

/-- Entry `(y, j)` of the block the body leaves: the summariser on the row blocks `x0` (x), `x1`, `x3`, `x5` (the
    neighbour sums), `x2`, `x4`, `x6` (the neighbour counts, one column each), with the weights `x7`, `x8`, `x9` per
    relation and `x10` … `x13` of the dense layers. -/
theorem block_apply (x0 x1 : Vec Ideal S2000x128 .f32) (x2 : Vec Ideal S2000x1 .f32) (x3 : Vec Ideal S2000x128 .f32)
    (x4 : Vec Ideal S2000x1 .f32) (x5 : Vec Ideal S2000x128 .f32) (x6 : Vec Ideal S2000x1 .f32) (x7 : Vec Ideal S3x128x128 .bf16)
    (x8 : Vec Ideal S3x128 .f32) (x9 : Vec Ideal S3x128x128 .bf16) (x10 : Vec Ideal S384x128 .bf16) (x11 : Vec Ideal S128 .f32)
    (x12 : Vec Ideal S128x128 .bf16) (x13 : Vec Ideal S128 .f32) (y : Fin 2000) (j : Fin 128) :
    out0_14 (F := Ideal) x0 x1 x2 x3 x4 x5 x6 x7 x8 x9 x10 x11 x12 x13 (ix2 y j)
      = Sage.out (fun y c => x0 (ix2 y c)) (fun y c => x1 (ix2 y c)) (fun y c => x3 (ix2 y c)) (fun y c => x5 (ix2 y c))
          (fun y => x2 (ix2 y (0 : Fin 1))) (fun y => x4 (ix2 y (0 : Fin 1))) (fun y => x6 (ix2 y (0 : Fin 1)))
          (fun r c j => x7 (ix3 r c j)) (fun r j => x8 (ix2 r j)) (fun r c j => x9 (ix3 r c j))
          (fun q k => x10 (ix2 q k)) (fun k => x11 (ix1 k)) (fun k j => x12 (ix2 k j)) (fun j => x13 (ix1 j)) y j := by
  unfold out0_14
  rw [View.canon_unit_zero zeros2]
  simp only [View.ld_unit_zero (S := S2000x128) zeros2, View.ld_unit_zero (S := S2000x1) zeros2,
    View.ld_unit_zero (S := S384x128) zeros2, View.ld_unit_zero (S := S128x128) zeros2, View.ld_unit_zero (S := S128) zeros1]
  rw [dense_apply]
  unfold Sage.out
  simp only [joined_layers_apply, first_layer_apply, k0_pay2, k0_pay3, k0_pay4, k0_pay5, k0_pay7, k0_pay9, shapeCast_self,
    truncf_apply, maximumf_apply, broadcast_apply]
  have p0 := plane0 x7; have p1 := plane1 x7; have p2 := plane2 x7
  have q0 := plane0 x9; have q1 := plane1 x9; have q2 := plane2 x9
  have b0 := row0 x8; have b1 := row1 x8; have b2 := row2 x8
  simp only [p0, p1, p2, q0, q1, q2, b0, b1, b2]
  rfl

end Cert.KernelIdeal.Body

end
-- ==== Proof.KernelIndex.lean ====
/-
  Where each window's block sits in its array.

  The grid has 50 points; at point t every row window (x, the three neighbour sums, the three count columns, the
  output) sits on rows 2000·t … 2000·t + 1999 of its array, and every weight window on its whole array.
-/
import proofs.«175074_j798863917140_2_alg».proof.Proof.Gen.KernelIdeal.Frame
import proofs.«175074_j798863917140_2_alg».proof.Proof.Sage
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The summariser on whole arrays, as one array: entry `(p, j)` from row `p` of x, of the sums and of the counts. -/
def whole (X S0 S1 S2 : S100000x128.Idx → EReal) (C0 C1 C2 : S100000x1.Idx → EReal) (WL : S3x128x128.Idx → EReal)
    (BL : S3x128.Idx → EReal) (WR : S3x128x128.Idx → EReal) (P1 : S384x128.Idx → EReal) (B1 : S128.Idx → EReal)
    (P2 : S128x128.Idx → EReal) (B2 : S128.Idx → EReal) : S100000x128.Idx → EReal :=
  fun i => Sage.out (fun p k => X (ix2 p k)) (fun p k => S0 (ix2 p k)) (fun p k => S1 (ix2 p k)) (fun p k => S2 (ix2 p k))
    (fun p => C0 (ix2 p (0 : Fin 1))) (fun p => C1 (ix2 p (0 : Fin 1))) (fun p => C2 (ix2 p (0 : Fin 1)))
    (fun r k j => WL (ix3 r k j)) (fun r j => BL (ix2 r j)) (fun r k j => WR (ix3 r k j))
    (fun q k => P1 (ix2 q k)) (fun k => B1 (ix1 k)) (fun k j => P2 (ix2 k j)) (fun j => B2 (ix1 j)) (i 0) (i 1)

variable (m : (ℓ : Loc nD τ sig) → Buf (Elt Ideal) ℓ)

/-! ## Where each window's block sits -/

/-- The row windows move down their arrays 2000 rows per grid point (decided over the 50 points). -/
theorem rows_index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_14.index t = ![t.val, 0] :=
  (by decide +kernel : ∀ t : Fin grid0.N, _)

/-- The weight windows stay on their whole arrays (decided over the 50 points). -/
theorem fixed_index : ∀ t : Fin cfg0.N, win0_7.index t = ![0, 0, 0] ∧ win0_8.index t = ![0, 0] ∧ win0_9.index t = ![0, 0, 0]
    ∧ win0_10.index t = ![0, 0] ∧ win0_11.index t = ![0] ∧ win0_12.index t = ![0, 0] ∧ win0_13.index t = ![0] :=
  (by decide +kernel : ∀ t : Fin grid0.N, _)

/-- Row `y` of the block at point `t` is row `2000·t + y` of the array. -/
def row (t : Fin cfg0.N) (y : Fin 2000) : Fin 100000 :=
  ⟨t.val * 2000 + y.val, by have := t.isLt; have hN : cfg0.N = 50 := N_0; have := y.isLt; omega⟩

/-! ## A block's entry in its array -/

theorem at_x (t : Fin cfg0.N) (y : Fin 2000) (k : Fin 128) :
    ((cfg0.win 0).blk t).view.emb (ix2 y k) = ix2 (row t y) k := by
  refine funext fun a => Fin.ext ?_
  have h0 : win0_0.index t (0 : Fin 2) = t.val := congrFun (rows_index t).1 0
  have h1 : win0_0.index t (1 : Fin 2) = 0 := congrFun (rows_index t).1 1
  match a with
  | ⟨0, _⟩ => show win0_0.index t (0 : Fin 2) * 2000 + 1 * y.val = t.val * 2000 + y.val; rw [h0]; omega
  | ⟨1, _⟩ => show win0_0.index t (1 : Fin 2) * 128 + 1 * k.val = k.val; rw [h1]; omega

theorem at_s0 (t : Fin cfg0.N) (y : Fin 2000) (k : Fin 128) :
    ((cfg0.win 1).blk t).view.emb (ix2 y k) = ix2 (row t y) k := by
  refine funext fun a => Fin.ext ?_
  have h0 : win0_1.index t (0 : Fin 2) = t.val := congrFun (rows_index t).2.1 0
  have h1 : win0_1.index t (1 : Fin 2) = 0 := congrFun (rows_index t).2.1 1
  match a with
  | ⟨0, _⟩ => show win0_1.index t (0 : Fin 2) * 2000 + 1 * y.val = t.val * 2000 + y.val; rw [h0]; omega
  | ⟨1, _⟩ => show win0_1.index t (1 : Fin 2) * 128 + 1 * k.val = k.val; rw [h1]; omega

theorem at_c0 (t : Fin cfg0.N) (y : Fin 2000) (k : Fin 1) :
    ((cfg0.win 2).blk t).view.emb (ix2 y k) = ix2 (row t y) k := by
  refine funext fun a => Fin.ext ?_
  have h0 : win0_2.index t (0 : Fin 2) = t.val := congrFun (rows_index t).2.2.1 0
  have h1 : win0_2.index t (1 : Fin 2) = 0 := congrFun (rows_index t).2.2.1 1
  match a with
  | ⟨0, _⟩ => show win0_2.index t (0 : Fin 2) * 2000 + 1 * y.val = t.val * 2000 + y.val; rw [h0]; omega
  | ⟨1, _⟩ => show win0_2.index t (1 : Fin 2) * 1 + 1 * k.val = k.val; rw [h1]; omega

theorem at_s1 (t : Fin cfg0.N) (y : Fin 2000) (k : Fin 128) :
    ((cfg0.win 3).blk t).view.emb (ix2 y k) = ix2 (row t y) k := by
  refine funext fun a => Fin.ext ?_
  have h0 : win0_3.index t (0 : Fin 2) = t.val := congrFun (rows_index t).2.2.2.1 0
  have h1 : win0_3.index t (1 : Fin 2) = 0 := congrFun (rows_index t).2.2.2.1 1
  match a with
  | ⟨0, _⟩ => show win0_3.index t (0 : Fin 2) * 2000 + 1 * y.val = t.val * 2000 + y.val; rw [h0]; omega
  | ⟨1, _⟩ => show win0_3.index t (1 : Fin 2) * 128 + 1 * k.val = k.val; rw [h1]; omega

theorem at_c1 (t : Fin cfg0.N) (y : Fin 2000) (k : Fin 1) :
    ((cfg0.win 4).blk t).view.emb (ix2 y k) = ix2 (row t y) k := by
  refine funext fun a => Fin.ext ?_
  have h0 : win0_4.index t (0 : Fin 2) = t.val := congrFun (rows_index t).2.2.2.2.1 0
  have h1 : win0_4.index t (1 : Fin 2) = 0 := congrFun (rows_index t).2.2.2.2.1 1
  match a with
  | ⟨0, _⟩ => show win0_4.index t (0 : Fin 2) * 2000 + 1 * y.val = t.val * 2000 + y.val; rw [h0]; omega
  | ⟨1, _⟩ => show win0_4.index t (1 : Fin 2) * 1 + 1 * k.val = k.val; rw [h1]; omega

theorem at_s2 (t : Fin cfg0.N) (y : Fin 2000) (k : Fin 128) :
    ((cfg0.win 5).blk t).view.emb (ix2 y k) = ix2 (row t y) k := by
  refine funext fun a => Fin.ext ?_
  have h0 : win0_5.index t (0 : Fin 2) = t.val := congrFun (rows_index t).2.2.2.2.2.1 0
  have h1 : win0_5.index t (1 : Fin 2) = 0 := congrFun (rows_index t).2.2.2.2.2.1 1
  match a with
  | ⟨0, _⟩ => show win0_5.index t (0 : Fin 2) * 2000 + 1 * y.val = t.val * 2000 + y.val; rw [h0]; omega
  | ⟨1, _⟩ => show win0_5.index t (1 : Fin 2) * 128 + 1 * k.val = k.val; rw [h1]; omega

theorem at_c2 (t : Fin cfg0.N) (y : Fin 2000) (k : Fin 1) :
    ((cfg0.win 6).blk t).view.emb (ix2 y k) = ix2 (row t y) k := by
  refine funext fun a => Fin.ext ?_
  have h0 : win0_6.index t (0 : Fin 2) = t.val := congrFun (rows_index t).2.2.2.2.2.2.1 0
  have h1 : win0_6.index t (1 : Fin 2) = 0 := congrFun (rows_index t).2.2.2.2.2.2.1 1
  match a with
  | ⟨0, _⟩ => show win0_6.index t (0 : Fin 2) * 2000 + 1 * y.val = t.val * 2000 + y.val; rw [h0]; omega
  | ⟨1, _⟩ => show win0_6.index t (1 : Fin 2) * 1 + 1 * k.val = k.val; rw [h1]; omega

theorem at_out (t : Fin cfg0.N) (y : Fin 2000) (k : Fin 128) :
    ((cfg0.win 14).blk t).view.emb (ix2 y k) = ix2 (row t y) k := by
  refine funext fun a => Fin.ext ?_
  have h0 : win0_14.index t (0 : Fin 2) = t.val := congrFun (rows_index t).2.2.2.2.2.2.2 0
  have h1 : win0_14.index t (1 : Fin 2) = 0 := congrFun (rows_index t).2.2.2.2.2.2.2 1
  match a with
  | ⟨0, _⟩ => show win0_14.index t (0 : Fin 2) * 2000 + 1 * y.val = t.val * 2000 + y.val; rw [h0]; omega
  | ⟨1, _⟩ => show win0_14.index t (1 : Fin 2) * 128 + 1 * k.val = k.val; rw [h1]; omega

theorem at_wl (t : Fin cfg0.N) (r : Fin 3) (k j : Fin 128) :
    ((cfg0.win 7).blk t).view.emb (ix3 r k j) = ix3 r k j := by
  refine funext fun a => Fin.ext ?_
  have h0 : win0_7.index t (0 : Fin 3) = 0 := congrFun (fixed_index t).1 0
  have h1 : win0_7.index t (1 : Fin 3) = 0 := congrFun (fixed_index t).1 1
  have h2 : win0_7.index t (2 : Fin 3) = 0 := congrFun (fixed_index t).1 2
  match a with
  | ⟨0, _⟩ => show win0_7.index t (0 : Fin 3) * 3 + 1 * r.val = r.val; rw [h0]; omega
  | ⟨1, _⟩ => show win0_7.index t (1 : Fin 3) * 128 + 1 * k.val = k.val; rw [h1]; omega
  | ⟨2, _⟩ => show win0_7.index t (2 : Fin 3) * 128 + 1 * j.val = j.val; rw [h2]; omega

theorem at_bl (t : Fin cfg0.N) (q : Fin 3) (k : Fin 128) :
    ((cfg0.win 8).blk t).view.emb (ix2 q k) = ix2 q k := by
  refine funext fun a => Fin.ext ?_
  have h0 : win0_8.index t (0 : Fin 2) = 0 := congrFun (fixed_index t).2.1 0
  have h1 : win0_8.index t (1 : Fin 2) = 0 := congrFun (fixed_index t).2.1 1
  match a with
  | ⟨0, _⟩ => show win0_8.index t (0 : Fin 2) * 3 + 1 * q.val = q.val; rw [h0]; omega
  | ⟨1, _⟩ => show win0_8.index t (1 : Fin 2) * 128 + 1 * k.val = k.val; rw [h1]; omega

theorem at_wr (t : Fin cfg0.N) (r : Fin 3) (k j : Fin 128) :
    ((cfg0.win 9).blk t).view.emb (ix3 r k j) = ix3 r k j := by
  refine funext fun a => Fin.ext ?_
  have h0 : win0_9.index t (0 : Fin 3) = 0 := congrFun (fixed_index t).2.2.1 0
  have h1 : win0_9.index t (1 : Fin 3) = 0 := congrFun (fixed_index t).2.2.1 1
  have h2 : win0_9.index t (2 : Fin 3) = 0 := congrFun (fixed_index t).2.2.1 2
  match a with
  | ⟨0, _⟩ => show win0_9.index t (0 : Fin 3) * 3 + 1 * r.val = r.val; rw [h0]; omega
  | ⟨1, _⟩ => show win0_9.index t (1 : Fin 3) * 128 + 1 * k.val = k.val; rw [h1]; omega
  | ⟨2, _⟩ => show win0_9.index t (2 : Fin 3) * 128 + 1 * j.val = j.val; rw [h2]; omega

theorem at_p1 (t : Fin cfg0.N) (q : Fin 384) (k : Fin 128) :
    ((cfg0.win 10).blk t).view.emb (ix2 q k) = ix2 q k := by
  refine funext fun a => Fin.ext ?_
  have h0 : win0_10.index t (0 : Fin 2) = 0 := congrFun (fixed_index t).2.2.2.1 0
  have h1 : win0_10.index t (1 : Fin 2) = 0 := congrFun (fixed_index t).2.2.2.1 1
  match a with
  | ⟨0, _⟩ => show win0_10.index t (0 : Fin 2) * 384 + 1 * q.val = q.val; rw [h0]; omega
  | ⟨1, _⟩ => show win0_10.index t (1 : Fin 2) * 128 + 1 * k.val = k.val; rw [h1]; omega

theorem at_b1 (t : Fin cfg0.N) (k : Fin 128) :
    ((cfg0.win 11).blk t).view.emb (ix1 k) = ix1 k := by
  refine funext fun a => Fin.ext ?_
  have h0 : win0_11.index t (0 : Fin 1) = 0 := congrFun (fixed_index t).2.2.2.2.1 0
  match a with
  | ⟨0, _⟩ => show win0_11.index t (0 : Fin 1) * 128 + 1 * k.val = k.val; rw [h0]; omega

theorem at_p2 (t : Fin cfg0.N) (q : Fin 128) (k : Fin 128) :
    ((cfg0.win 12).blk t).view.emb (ix2 q k) = ix2 q k := by
  refine funext fun a => Fin.ext ?_
  have h0 : win0_12.index t (0 : Fin 2) = 0 := congrFun (fixed_index t).2.2.2.2.2.1 0
  have h1 : win0_12.index t (1 : Fin 2) = 0 := congrFun (fixed_index t).2.2.2.2.2.1 1
  match a with
  | ⟨0, _⟩ => show win0_12.index t (0 : Fin 2) * 128 + 1 * q.val = q.val; rw [h0]; omega
  | ⟨1, _⟩ => show win0_12.index t (1 : Fin 2) * 128 + 1 * k.val = k.val; rw [h1]; omega

theorem at_b2 (t : Fin cfg0.N) (k : Fin 128) :
    ((cfg0.win 13).blk t).view.emb (ix1 k) = ix1 k := by
  refine funext fun a => Fin.ext ?_
  have h0 : win0_13.index t (0 : Fin 1) = 0 := congrFun (fixed_index t).2.2.2.2.2.2 0
  match a with
  | ⟨0, _⟩ => show win0_13.index t (0 : Fin 1) * 128 + 1 * k.val = k.val; rw [h0]; omega

end Cert.KernelIdeal.Whole

end
-- ==== Proof.KernelReadsRows.lean ====
/-
  The row windows' blocks, entry by entry: row y of the block at point t is row 2000·t + y of the array the region finds.
-/
import proofs.«175074_j798863917140_2_alg».proof.Proof.KernelIndex

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem read_x (c : Dev nD) (t : Fin cfg0.N) (y : Fin 2000) (k : Fin 128) :
    iblk m c 0 t (ix2 y k) = V m c main_arg0 (ix2 (row t y) k) := by
  show V m c main_arg0 (((cfg0.win 0).blk t).view.emb (ix2 y k)) = _
  exact congrArg (V m c main_arg0) (at_x t y k)

theorem read_s0 (c : Dev nD) (t : Fin cfg0.N) (y : Fin 2000) (k : Fin 128) :
    iblk m c 1 t (ix2 y k) = V m c main_v13 (ix2 (row t y) k) := by
  show V m c main_v13 (((cfg0.win 1).blk t).view.emb (ix2 y k)) = _
  exact congrArg (V m c main_v13) (at_s0 t y k)

theorem read_s1 (c : Dev nD) (t : Fin cfg0.N) (y : Fin 2000) (k : Fin 128) :
    iblk m c 3 t (ix2 y k) = V m c main_v32 (ix2 (row t y) k) := by
  show V m c main_v32 (((cfg0.win 3).blk t).view.emb (ix2 y k)) = _
  exact congrArg (V m c main_v32) (at_s1 t y k)

theorem read_s2 (c : Dev nD) (t : Fin cfg0.N) (y : Fin 2000) (k : Fin 128) :
    iblk m c 5 t (ix2 y k) = V m c main_v51 (ix2 (row t y) k) := by
  show V m c main_v51 (((cfg0.win 5).blk t).view.emb (ix2 y k)) = _
  exact congrArg (V m c main_v51) (at_s2 t y k)

theorem read_c0 (c : Dev nD) (t : Fin cfg0.N) (y : Fin 2000) :
    iblk m c 2 t (ix2 y (0 : Fin 1)) = V m c main_v18 (ix2 (row t y) (0 : Fin 1)) := by
  show V m c main_v18 (((cfg0.win 2).blk t).view.emb (ix2 y (0 : Fin 1))) = _
  exact congrArg (V m c main_v18) (at_c0 t y 0)

theorem read_c1 (c : Dev nD) (t : Fin cfg0.N) (y : Fin 2000) :
    iblk m c 4 t (ix2 y (0 : Fin 1)) = V m c main_v37 (ix2 (row t y) (0 : Fin 1)) := by
  show V m c main_v37 (((cfg0.win 4).blk t).view.emb (ix2 y (0 : Fin 1))) = _
  exact congrArg (V m c main_v37) (at_c1 t y 0)

theorem read_c2 (c : Dev nD) (t : Fin cfg0.N) (y : Fin 2000) :
    iblk m c 6 t (ix2 y (0 : Fin 1)) = V m c main_v56 (ix2 (row t y) (0 : Fin 1)) := by
  show V m c main_v56 (((cfg0.win 6).blk t).view.emb (ix2 y (0 : Fin 1))) = _
  exact congrArg (V m c main_v56) (at_c2 t y 0)

end Cert.KernelIdeal.Whole

end
-- ==== Proof.KernelReadsWeights.lean ====
/-
  The weight windows' blocks, entry by entry: at every point the block is the whole array the region finds.
-/
import proofs.«175074_j798863917140_2_alg».proof.Proof.KernelIndex

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem read_wl (c : Dev nD) (t : Fin cfg0.N) (r : Fin 3) (k j : Fin 128) :
    iblk m c 7 t (ix3 r k j) = V m c main_v57 (ix3 r k j) := by
  show V m c main_v57 (((cfg0.win 7).blk t).view.emb (ix3 r k j)) = _
  exact congrArg (V m c main_v57) (at_wl t r k j)

theorem read_bl (c : Dev nD) (t : Fin cfg0.N) (q : Fin 3) (k : Fin 128) :
    iblk m c 8 t (ix2 q k) = V m c main_arg5 (ix2 q k) := by
  show V m c main_arg5 (((cfg0.win 8).blk t).view.emb (ix2 q k)) = _
  exact congrArg (V m c main_arg5) (at_bl t q k)

theorem read_wr (c : Dev nD) (t : Fin cfg0.N) (r : Fin 3) (k j : Fin 128) :
    iblk m c 9 t (ix3 r k j) = V m c main_v58 (ix3 r k j) := by
  show V m c main_v58 (((cfg0.win 9).blk t).view.emb (ix3 r k j)) = _
  exact congrArg (V m c main_v58) (at_wr t r k j)

theorem read_p1 (c : Dev nD) (t : Fin cfg0.N) (q : Fin 384) (k : Fin 128) :
    iblk m c 10 t (ix2 q k) = V m c main_v59 (ix2 q k) := by
  show V m c main_v59 (((cfg0.win 10).blk t).view.emb (ix2 q k)) = _
  exact congrArg (V m c main_v59) (at_p1 t q k)

theorem read_b1 (c : Dev nD) (t : Fin cfg0.N) (k : Fin 128) :
    iblk m c 11 t (ix1 k) = V m c main_arg8 (ix1 k) := by
  show V m c main_arg8 (((cfg0.win 11).blk t).view.emb (ix1 k)) = _
  exact congrArg (V m c main_arg8) (at_b1 t k)

theorem read_p2 (c : Dev nD) (t : Fin cfg0.N) (q : Fin 128) (k : Fin 128) :
    iblk m c 12 t (ix2 q k) = V m c main_v60 (ix2 q k) := by
  show V m c main_v60 (((cfg0.win 12).blk t).view.emb (ix2 q k)) = _
  exact congrArg (V m c main_v60) (at_p2 t q k)

theorem read_b2 (c : Dev nD) (t : Fin cfg0.N) (k : Fin 128) :
    iblk m c 13 t (ix1 k) = V m c main_arg10 (ix1 k) := by
  show V m c main_arg10 (((cfg0.win 13).blk t).view.emb (ix1 k)) = _
  exact congrArg (V m c main_arg10) (at_b2 t k)

end Cert.KernelIdeal.Whole

end
-- ==== Proof.KernelArray.lean ====
/-
  From blocks to the whole array.

  What grid point t writes back is block t of ONE array — the summariser on the whole arrays as the region finds them:
  the body's block is the summariser on the row blocks, row y of each row block is row 2000·t + y of its array, and
  row p of the summariser depends on row p of its row arrays only. The 50 blocks tile the 100000 rows, so the output
  array ends holding that array.
-/
import proofs.«175074_j798863917140_2_alg».proof.Proof.Gen.KernelIdeal.Value
import proofs.«175074_j798863917140_2_alg».proof.Proof.KernelBlock
import proofs.«175074_j798863917140_2_alg».proof.Proof.KernelReadsRows
import proofs.«175074_j798863917140_2_alg».proof.Proof.KernelReadsWeights

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## What point `t` writes back -/

/-- The summariser depends on its fourteen arrays entry by entry. -/
theorem out_congr {N : ℕ} {x x' S0 S0' S1 S1' S2 S2' : Fin N → Fin 128 → EReal} {c0 c0' c1 c1' c2 c2' : Fin N → EReal}
    {Wl Wl' : Fin 3 → Fin 128 → Fin 128 → EReal} {bl bl' : Fin 3 → Fin 128 → EReal} {Wr Wr' : Fin 3 → Fin 128 → Fin 128 → EReal}
    {P1 P1' : Fin 384 → Fin 128 → EReal} {b1 b1' : Fin 128 → EReal} {P2 P2' : Fin 128 → Fin 128 → EReal} {b2 b2' : Fin 128 → EReal}
    (hx : ∀ p k, x p k = x' p k) (hS0 : ∀ p k, S0 p k = S0' p k) (hS1 : ∀ p k, S1 p k = S1' p k) (hS2 : ∀ p k, S2 p k = S2' p k)
    (hc0 : ∀ p, c0 p = c0' p) (hc1 : ∀ p, c1 p = c1' p) (hc2 : ∀ p, c2 p = c2' p)
    (hWl : ∀ r k j, Wl r k j = Wl' r k j) (hbl : ∀ r j, bl r j = bl' r j) (hWr : ∀ r k j, Wr r k j = Wr' r k j)
    (hP1 : ∀ q k, P1 q k = P1' q k) (hb1 : ∀ k, b1 k = b1' k) (hP2 : ∀ k j, P2 k j = P2' k j) (hb2 : ∀ j, b2 j = b2' j)
    (p : Fin N) (j : Fin 128) :
    Sage.out x S0 S1 S2 c0 c1 c2 Wl bl Wr P1 b1 P2 b2 p j = Sage.out x' S0' S1' S2' c0' c1' c2' Wl' bl' Wr' P1' b1' P2' b2' p j := by
  obtain rfl : x = x' := funext fun p => funext fun k => hx p k
  obtain rfl : S0 = S0' := funext fun p => funext fun k => hS0 p k
  obtain rfl : S1 = S1' := funext fun p => funext fun k => hS1 p k
  obtain rfl : S2 = S2' := funext fun p => funext fun k => hS2 p k
  obtain rfl : c0 = c0' := funext hc0
  obtain rfl : c1 = c1' := funext hc1
  obtain rfl : c2 = c2' := funext hc2
  obtain rfl : Wl = Wl' := funext fun r => funext fun k => funext fun j => hWl r k j
  obtain rfl : bl = bl' := funext fun r => funext fun j => hbl r j
  obtain rfl : Wr = Wr' := funext fun r => funext fun k => funext fun j => hWr r k j
  obtain rfl : P1 = P1' := funext fun q => funext fun k => hP1 q k
  obtain rfl : b1 = b1' := funext hb1
  obtain rfl : P2 = P2' := funext fun k => funext fun j => hP2 k j
  obtain rfl : b2 = b2' := funext hb2
  rfl

/-- The whole-array summariser read at `(p, j)`. -/
theorem whole_apply (X S0 S1 S2 : S100000x128.Idx → EReal) (C0 C1 C2 : S100000x1.Idx → EReal) (WL : S3x128x128.Idx → EReal)
    (BL : S3x128.Idx → EReal) (WR : S3x128x128.Idx → EReal) (P1 : S384x128.Idx → EReal) (B1 : S128.Idx → EReal)
    (P2 : S128x128.Idx → EReal) (B2 : S128.Idx → EReal) (p : Fin 100000) (j : Fin 128) :
    whole X S0 S1 S2 C0 C1 C2 WL BL WR P1 B1 P2 B2 (ix2 p j)
      = Sage.out (fun p k => X (ix2 p k)) (fun p k => S0 (ix2 p k)) (fun p k => S1 (ix2 p k)) (fun p k => S2 (ix2 p k))
          (fun p => C0 (ix2 p (0 : Fin 1))) (fun p => C1 (ix2 p (0 : Fin 1))) (fun p => C2 (ix2 p (0 : Fin 1)))
          (fun r k j => WL (ix3 r k j)) (fun r j => BL (ix2 r j)) (fun r k j => WR (ix3 r k j))
          (fun q k => P1 (ix2 q k)) (fun k => B1 (ix1 k)) (fun k j => P2 (ix2 k j)) (fun j => B2 (ix1 j)) p j := rfl

/-- WHAT POINT `t` WRITES BACK is block `t` of the summariser on the arrays as the region finds them. -/
theorem flushed_eq (c : Dev nD) (t : Fin cfg0.N) :
    (dats m 0 c).flushed 14 t = ((cfg0.win 14).blk t).view.read (Elt Ideal) (whole (V m c main_arg0) (V m c main_v13) (V m c main_v32) (V m c main_v51) (V m c main_v18) (V m c main_v37) (V m c main_v56) (V m c main_v57) (V m c main_arg5) (V m c main_v58) (V m c main_v59) (V m c main_arg8) (V m c main_v60) (V m c main_arg10)) := by
  show (cfg0.win 14).cut (grid0.coords t) ((dats m 0 c).after 14 t) = _
  rw [after0_14]
  funext i
  obtain ⟨a, b, rfl⟩ : ∃ (a : Fin 2000) (b : Fin 128), i = ix2 a b := ⟨i 0, i 1, eq_ix2 i⟩
  rw [View.read_apply, cast_eq, at_out t a b, whole_apply]
  refine (Body.block_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) a b).trans ?_
  refine (out_congr (fun y k => read_x m c t y k) (fun y k => read_s0 m c t y k) (fun y k => read_s1 m c t y k)
    (fun y k => read_s2 m c t y k) (fun y => read_c0 m c t y) (fun y => read_c1 m c t y) (fun y => read_c2 m c t y)
    (fun r k j => read_wl m c t r k j) (fun r j => read_bl m c t r j) (fun r k j => read_wr m c t r k j)
    (fun q k => read_p1 m c t q k) (fun k => read_b1 m c t k) (fun k j => read_p2 m c t k j) (fun j => read_b2 m c t j) a b).trans ?_
  exact Sage.out_rows (row t) (fun p k => V m c main_arg0 (ix2 p k)) (fun p k => V m c main_v13 (ix2 p k))
    (fun p k => V m c main_v32 (ix2 p k)) (fun p k => V m c main_v51 (ix2 p k))
    (fun p => V m c main_v18 (ix2 p (0 : Fin 1))) (fun p => V m c main_v37 (ix2 p (0 : Fin 1))) (fun p => V m c main_v56 (ix2 p (0 : Fin 1)))
    (fun r k j => V m c main_v57 (ix3 r k j)) (fun r j => V m c main_arg5 (ix2 r j)) (fun r k j => V m c main_v58 (ix3 r k j))
    (fun q k => V m c main_v59 (ix2 q k)) (fun k => V m c main_arg8 (ix1 k)) (fun k j => V m c main_v60 (ix2 k j))
    (fun j => V m c main_arg10 (ix1 j)) a b

/-! ## The 50 blocks tile the array -/

/-- An index of the output array is in point `t`'s block iff each coordinate is in the block's range on its axis. -/
theorem mem_blk (t : Fin cfg0.N) (i : S100000x128.Idx) :
    i ∈ ((cfg0.win 14).blk t).view.set ↔ ∀ a : Fin 2, win0_14.index t a * S2000x128.size a ≤ (i a).val
      ∧ (i a).val < win0_14.index t a * S2000x128.size a + S2000x128.size a := by
  show i ∈ ((View.whole main_v61).slice (win0_14.rect t)).set ↔ _
  rw [View.set_slice_whole, Rect.mem_set_unit]
  exact Iff.rfl

/-- Row `p` lies in the block of point `p / 2000`. -/
theorem cover (i : S100000x128.Idx) : ∃ t : Fin cfg0.N, (cfg0.win 14).flush t = true ∧ i ∈ ((cfg0.win 14).blk t).view.set := by
  have hi0 : (i 0).val < 100000 := (i 0).isLt
  have hi1 : (i 1).val < 128 := (i 1).isLt
  have hN : cfg0.N = 50 := N_0
  refine ⟨⟨(i 0).val / 2000, by omega⟩, flush0_14 _, ?_⟩
  rw [mem_blk]
  intro a
  have h0 := congrFun (rows_index ⟨(i 0).val / 2000, by omega⟩).2.2.2.2.2.2.2 0
  have h1 := congrFun (rows_index ⟨(i 0).val / 2000, by omega⟩).2.2.2.2.2.2.2 1
  match a with
  | ⟨0, _⟩ =>
    show win0_14.index _ (0 : Fin 2) * 2000 ≤ (i 0).val ∧ (i 0).val < win0_14.index _ (0 : Fin 2) * 2000 + 2000
    rw [h0]
    show (i 0).val / 2000 * 2000 ≤ (i 0).val ∧ (i 0).val < (i 0).val / 2000 * 2000 + 2000
    omega
  | ⟨1, _⟩ =>
    show win0_14.index _ (1 : Fin 2) * 128 ≤ (i 1).val ∧ (i 1).val < win0_14.index _ (1 : Fin 2) * 128 + 128
    rw [h1]
    show 0 * 128 ≤ (i 1).val ∧ (i 1).val < 0 * 128 + 128
    omega

/-- THE OUTPUT ARRAY after the run: the summariser on the arrays as the region finds them. -/
theorem final (c : Dev nD) : (dats m 0 c).arrAt 14 cfg0.N = whole (V m c main_arg0) (V m c main_v13) (V m c main_v32) (V m c main_v51) (V m c main_v18) (V m c main_v37) (V m c main_v56) (V m c main_v57) (V m c main_arg5) (V m c main_v58) (V m c main_v59) (V m c main_arg8) (V m c main_v60) (V m c main_arg10) :=
  (dats m 0 c).arrAt_eq_of_cover 14 _ (fun t _ => flushed_eq m c t) cover

end Cert.KernelIdeal.Whole

end
-- ==== Proof.HostPrelude.lean ====
/-
  What the kernel's program hands to the region.

  Before the region the program computes, per relation, the neighbour sums (a gather of the source rows and a
  scatter-add onto the destination rows) and the neighbour counts (a scatter-add of ones), exactly as the reference
  does — the same operations on the same arguments —, recasts each count vector as one column, and narrows the four
  weight arrays to a shorter float format, which on the extended reals changes nothing.
-/
import proofs.«175074_j798863917140_2_alg».proof.Proof.Gen.KernelIdeal.Frame
import proofs.«175074_j798863917140_2_alg».proof.Proof.Gen.ReferenceIdeal.Read
import Idealize.ShloMosaic.Lib.StableHlo.Run

noncomputable section

namespace Cert.KernelIdeal.Prelude

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Relation 0's neighbour sums are the reference's. -/
theorem sums0 (c : Dev nD) : V m c main_v13 = Cert.ReferenceIdeal.Read.val_main_v19 (F := Ideal) (m ((c : Thread nD τ).loc main_arg0)) (m ((c : Thread nD τ).loc main_arg1)) := by
  show StableHlo.after hostOps0 (fun b => m (c, b)) (Proc.devRef .tc main_v13) = _
  after_results_simp
  rfl

/-- Relation 1's neighbour sums are the reference's. -/
theorem sums1 (c : Dev nD) : V m c main_v32 = Cert.ReferenceIdeal.Read.val_main_v54 (F := Ideal) (m ((c : Thread nD τ).loc main_arg0)) (m ((c : Thread nD τ).loc main_arg2)) := by
  show StableHlo.after hostOps0 (fun b => m (c, b)) (Proc.devRef .tc main_v32) = _
  after_results_simp
  rfl

/-- Relation 2's neighbour sums are the reference's. -/
theorem sums2 (c : Dev nD) : V m c main_v51 = Cert.ReferenceIdeal.Read.val_main_v89 (F := Ideal) (m ((c : Thread nD τ).loc main_arg0)) (m ((c : Thread nD τ).loc main_arg3)) := by
  show StableHlo.after hostOps0 (fun b => m (c, b)) (Proc.devRef .tc main_v51) = _
  after_results_simp
  rfl

/-- Relation 0's neighbour counts are the reference's, as one column. -/
theorem counts0 (c : Dev nD) : V m c main_v18 = shapeCast S100000x1 (Cert.ReferenceIdeal.Read.val_main_v23 (F := Ideal) (m ((c : Thread nD τ).loc main_arg1))) shapeCasts_S100000_S100000x1 := by
  show StableHlo.after hostOps0 (fun b => m (c, b)) (Proc.devRef .tc main_v18) = _
  after_results_simp
  rfl

/-- Relation 1's neighbour counts are the reference's, as one column. -/
theorem counts1 (c : Dev nD) : V m c main_v37 = shapeCast S100000x1 (Cert.ReferenceIdeal.Read.val_main_v58 (F := Ideal) (m ((c : Thread nD τ).loc main_arg2))) shapeCasts_S100000_S100000x1 := by
  show StableHlo.after hostOps0 (fun b => m (c, b)) (Proc.devRef .tc main_v37) = _
  after_results_simp
  rfl

/-- Relation 2's neighbour counts are the reference's, as one column. -/
theorem counts2 (c : Dev nD) : V m c main_v56 = shapeCast S100000x1 (Cert.ReferenceIdeal.Read.val_main_v93 (F := Ideal) (m ((c : Thread nD τ).loc main_arg3))) shapeCasts_S100000_S100000x1 := by
  show StableHlo.after hostOps0 (fun b => m (c, b)) (Proc.devRef .tc main_v56) = _
  after_results_simp
  rfl

/-- The neighbour weights, narrowed. -/
theorem weights_l (c : Dev nD) (i : S3x128x128.Idx) : V m c main_v57 i = (m ((c : Thread nD τ).loc main_arg4)) i := by
  show StableHlo.after hostOps0 (fun b => m (c, b)) (Proc.devRef .tc main_v57) i = _
  after_results_simp
  rfl

/-- The self weights, narrowed. -/
theorem weights_r (c : Dev nD) (i : S3x128x128.Idx) : V m c main_v58 i = (m ((c : Thread nD τ).loc main_arg6)) i := by
  show StableHlo.after hostOps0 (fun b => m (c, b)) (Proc.devRef .tc main_v58) i = _
  after_results_simp
  rfl

/-- The first dense layer's weights, narrowed. -/
theorem weights_1 (c : Dev nD) (i : S384x128.Idx) : V m c main_v59 i = (m ((c : Thread nD τ).loc main_arg7)) i := by
  show StableHlo.after hostOps0 (fun b => m (c, b)) (Proc.devRef .tc main_v59) i = _
  after_results_simp
  rfl

/-- The second dense layer's weights, narrowed. -/
theorem weights_2 (c : Dev nD) (i : S128x128.Idx) : V m c main_v60 i = (m ((c : Thread nD τ).loc main_arg9)) i := by
  show StableHlo.after hostOps0 (fun b => m (c, b)) (Proc.devRef .tc main_v60) i = _
  after_results_simp
  rfl

end Cert.KernelIdeal.Prelude

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.RefValue.lean ====
/-
  What the reference computes, entry by entry.

  The reference works on whole arrays: per relation the neighbour sums divided by max(count, 1), two products with the
  relation's 128 × 128 weights and the bias; the three results side by side; two dense layers with a rectifier between.
  On the extended reals the host's product is the plain sum over the contracted coordinate, so entry (p, j) of its
  result is the summariser's formula on the whole arrays. The neighbour sums and counts (a gather and a scatter-add)
  enter only as arrays: nothing is asked of them.
-/
import proofs.«175074_j798863917140_2_alg».proof.Proof.Gen.ReferenceIdeal.Read
import proofs.«175074_j798863917140_2_alg».proof.Proof.Sage
import proofs.«175074_j798863917140_2_alg».proof.Proof.LibPlainDotGeneral
import proofs.«175074_j798863917140_2_alg».proof.Proof.LibConcatRead
import proofs.«175074_j798863917140_2_alg».proof.Proof.LibBiasRows
import Idealize.ShloMosaic.Lib.ValueLayout
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

variable [Cert.ReferenceIdeal.Facts]

/-! ## The host's operations read at an entry -/

/-- A 100000 × 128 by 128 × 128 product at `(p, j)`: the sum over the 128 contracted coordinates. -/
theorem prod128 (A : FVec Ideal S100000x128 .f32) (B : FVec Ideal S128x128 .f32) (p : Fin 100000) (j : Fin 128) :
    Host.dotGeneral dot_S100000x128_S128x128_S100000x128_1_0_0_1_n_n none A B (ix2 p j)
      = ∑ c : Fin 128, A (ix2 p c) * B (ix2 c j) :=
  dotGeneral_plain_apply dot_S100000x128_S128x128_S100000x128_1_0_0_1_n_n.wf none A B p j

/-- A 100000 × 384 by 384 × 128 product at `(p, j)`: the sum over the 384 contracted coordinates. -/
theorem prod384 (A : FVec Ideal S100000x384 .f32) (B : FVec Ideal S384x128 .f32) (p : Fin 100000) (j : Fin 128) :
    Host.dotGeneral dot_S100000x384_S384x128_S100000x128_1_0_0_1_n_n none A B (ix2 p j)
      = ∑ c : Fin 384, A (ix2 p c) * B (ix2 c j) :=
  dotGeneral_plain_apply dot_S100000x384_S384x128_S100000x128_1_0_0_1_n_n.wf none A B p j

/-- The host's quotient, entry by entry. -/
theorem quotient_apply {s : Shape} (a b : FVec Ideal s .f32) (i : s.Idx) : Host.divf a b i = Ideal.div (a i) (b i) := rfl

/-- The vector of ones. -/
theorem ones_apply (i : S100000.Idx) :
    broadcastInDim S100000 ![] bcast_S_S100000 (constant (F := Ideal) S_ .f32 0x3F800000#32) i = Sage.one :=
  broadcastInDim_apply _ bcast_S_S100000 _ i ix0 (fun a => a.elim0)

/-- The array of zeros. -/
theorem zeros_apply (i : S100000x128.Idx) :
    broadcastInDim S100000x128 ![] bcast_S_S100000x128 (constant (F := Ideal) S_ .f32 0x00000000#32) i = Sage.zero :=
  broadcastInDim_apply _ bcast_S_S100000x128 _ i ix0 (fun a => a.elim0)

/-- One value per node repeated along the node's row: entry `(p, c)` is the value of node `p`. -/
theorem per_node_apply (v : FVec Ideal S100000 .f32) (p : Fin 100000) (c : Fin 128) :
    broadcastInDim S100000x128 ![0, 1] bcast_S100000x1_S100000x128_0_1
        (broadcastInDim S100000x1 ![0] bcast_S100000_S100000x1_0 v) (ix2 p c) = v (ix1 p) :=
  row_factors_apply v bcast_S100000_S100000x1_0 bcast_S100000x1_S100000x128_0_1 p c

/-- A bias vector repeated down the rows: entry `(p, j)` is the vector's entry `j`. -/
theorem bias_apply (b : FVec Ideal S128 .f32) (p : Fin 100000) (j : Fin 128) :
    broadcastInDim S100000x128 ![0, 1] bcast_S1x128_S100000x128_0_1 (broadcastInDim S1x128 ![1] bcast_S128_S1x128_1 b) (ix2 p j)
      = b (ix1 j) :=
  bias_rows_apply b bcast_S128_S1x128_1 bcast_S1x128_S100000x128_0_1 p j

/-! ## One relation's layer -/

/-- One relation's layer on whole arrays, at `(p, j)`. -/
theorem layer_apply (x S : FVec Ideal S100000x128 .f32) (cnt : FVec Ideal S100000 .f32) (wl wr : FVec Ideal S128x128 .f32)
    (b : FVec Ideal S128 .f32) (p : Fin 100000) (j : Fin 128) :
    addf (addf (Host.dotGeneral dot_S100000x128_S128x128_S100000x128_1_0_0_1_n_n none
            (Host.divf S (broadcastInDim S100000x128 ![0, 1] bcast_S100000x1_S100000x128_0_1
              (broadcastInDim S100000x1 ![0] bcast_S100000_S100000x1_0
                (maximumf cnt (broadcastInDim S100000 ![] bcast_S_S100000 (constant (F := Ideal) S_ .f32 0x3F800000#32)))))) wl)
          (broadcastInDim S100000x128 ![0, 1] bcast_S1x128_S100000x128_0_1 (broadcastInDim S1x128 ![1] bcast_S128_S1x128_1 b)))
        (Host.dotGeneral dot_S100000x128_S128x128_S100000x128_1_0_0_1_n_n none x wr) (ix2 p j)
      = Sage.rel (fun p c => x (ix2 p c)) (fun p c => S (ix2 p c)) (fun p => cnt (ix1 p)) (fun c j => wl (ix2 c j))
          (fun j => b (ix1 j)) (fun c j => wr (ix2 c j)) p j := by
  rw [addf_apply, addf_apply, prod128, prod128, bias_apply]
  unfold Sage.rel
  refine congrArg₂ (· + ·) (congrArg₂ (· + ·) (Finset.sum_congr rfl fun c _ => ?_) rfl) rfl
  rw [quotient_apply, per_node_apply, maximumf_apply, ones_apply]

/-! ## Each relation's weights: a plane of the stack, a row of the bias table -/

theorem wl0 (x4 : FVec Ideal S3x128x128 .f32) (c j : Fin 128) : val_main_v1 (F := Ideal) x4 (ix2 c j) = x4 (ix3 (0 : Fin 3) c j) := by
  rw [val_main_v1_apply, val_main_v0_apply]
  refine congrArg x4 (funext fun a => Fin.ext ?_)
  have hc := c.isLt
  have hj := j.isLt
  match a with
  | ⟨0, _⟩ => rfl
  | ⟨1, _⟩ => show (c.val * 128 + j.val) / 128 % 128 = c.val; omega
  | ⟨2, _⟩ => show (c.val * 128 + j.val) % 128 = j.val; omega

theorem wl1 (x4 : FVec Ideal S3x128x128 .f32) (c j : Fin 128) : val_main_v36 (F := Ideal) x4 (ix2 c j) = x4 (ix3 (1 : Fin 3) c j) := by
  rw [val_main_v36_apply, val_main_v35_apply]
  refine congrArg x4 (funext fun a => Fin.ext ?_)
  have hc := c.isLt
  have hj := j.isLt
  match a with
  | ⟨0, _⟩ => rfl
  | ⟨1, _⟩ => show (c.val * 128 + j.val) / 128 % 128 = c.val; omega
  | ⟨2, _⟩ => show (c.val * 128 + j.val) % 128 = j.val; omega

theorem wl2 (x4 : FVec Ideal S3x128x128 .f32) (c j : Fin 128) : val_main_v71 (F := Ideal) x4 (ix2 c j) = x4 (ix3 (2 : Fin 3) c j) := by
  rw [val_main_v71_apply, val_main_v70_apply]
  refine congrArg x4 (funext fun a => Fin.ext ?_)
  have hc := c.isLt
  have hj := j.isLt
  match a with
  | ⟨0, _⟩ => rfl
  | ⟨1, _⟩ => show (c.val * 128 + j.val) / 128 % 128 = c.val; omega
  | ⟨2, _⟩ => show (c.val * 128 + j.val) % 128 = j.val; omega

theorem wr0 (x6 : FVec Ideal S3x128x128 .f32) (c j : Fin 128) : val_main_v5 (F := Ideal) x6 (ix2 c j) = x6 (ix3 (0 : Fin 3) c j) := by
  rw [val_main_v5_apply, val_main_v4_apply]
  refine congrArg x6 (funext fun a => Fin.ext ?_)
  have hc := c.isLt
  have hj := j.isLt
  match a with
  | ⟨0, _⟩ => rfl
  | ⟨1, _⟩ => show (c.val * 128 + j.val) / 128 % 128 = c.val; omega
  | ⟨2, _⟩ => show (c.val * 128 + j.val) % 128 = j.val; omega

theorem wr1 (x6 : FVec Ideal S3x128x128 .f32) (c j : Fin 128) : val_main_v40 (F := Ideal) x6 (ix2 c j) = x6 (ix3 (1 : Fin 3) c j) := by
  rw [val_main_v40_apply, val_main_v39_apply]
  refine congrArg x6 (funext fun a => Fin.ext ?_)
  have hc := c.isLt
  have hj := j.isLt
  match a with
  | ⟨0, _⟩ => rfl
  | ⟨1, _⟩ => show (c.val * 128 + j.val) / 128 % 128 = c.val; omega
  | ⟨2, _⟩ => show (c.val * 128 + j.val) % 128 = j.val; omega

theorem wr2 (x6 : FVec Ideal S3x128x128 .f32) (c j : Fin 128) : val_main_v75 (F := Ideal) x6 (ix2 c j) = x6 (ix3 (2 : Fin 3) c j) := by
  rw [val_main_v75_apply, val_main_v74_apply]
  refine congrArg x6 (funext fun a => Fin.ext ?_)
  have hc := c.isLt
  have hj := j.isLt
  match a with
  | ⟨0, _⟩ => rfl
  | ⟨1, _⟩ => show (c.val * 128 + j.val) / 128 % 128 = c.val; omega
  | ⟨2, _⟩ => show (c.val * 128 + j.val) % 128 = j.val; omega

theorem bl0 (x5 : FVec Ideal S3x128 .f32) (j : Fin 128) : val_main_v3 (F := Ideal) x5 (ix1 j) = x5 (ix2 (0 : Fin 3) j) := by
  rw [val_main_v3_apply, val_main_v2_apply]
  refine congrArg x5 (funext fun a => Fin.ext ?_)
  match a with
  | ⟨0, _⟩ => rfl
  | ⟨1, _⟩ => show (j.val % 128) = j.val; have := j.isLt; omega

theorem bl1 (x5 : FVec Ideal S3x128 .f32) (j : Fin 128) : val_main_v38 (F := Ideal) x5 (ix1 j) = x5 (ix2 (1 : Fin 3) j) := by
  rw [val_main_v38_apply, val_main_v37_apply]
  refine congrArg x5 (funext fun a => Fin.ext ?_)
  match a with
  | ⟨0, _⟩ => rfl
  | ⟨1, _⟩ => show (j.val % 128) = j.val; have := j.isLt; omega

theorem bl2 (x5 : FVec Ideal S3x128 .f32) (j : Fin 128) : val_main_v73 (F := Ideal) x5 (ix1 j) = x5 (ix2 (2 : Fin 3) j) := by
  rw [val_main_v73_apply, val_main_v72_apply]
  refine congrArg x5 (funext fun a => Fin.ext ?_)
  match a with
  | ⟨0, _⟩ => rfl
  | ⟨1, _⟩ => show (j.val % 128) = j.val; have := j.isLt; omega

/-! ## The three layers side by side -/

/-- Three 100000 × 128 arrays joined along the columns, at `(p, k)`. -/
theorem joined_apply (A B C : FVec Ideal S100000x128 .f32) (p : Fin 100000) (k : Fin 384) :
    concatenate S100000x384 1 [⟨S100000x128, A⟩, ⟨S100000x128, B⟩, ⟨S100000x128, C⟩]
        concatenates_S100000x128_S100000x128_S100000x128_S100000x384_d1 (ix2 p k)
      = Sage.joined (fun p j => A (ix2 p j)) (fun p j => B (ix2 p j)) (fun p j => C (ix2 p j)) p k := by
  unfold Sage.joined
  split_ifs with h h2
  · exact concat3_cols_first A B C concatenates_S100000x128_S100000x128_S100000x128_S100000x384_d1 p ⟨k.val, h⟩ k rfl
  · exact concat3_cols_second A B C concatenates_S100000x128_S100000x128_S100000x128_S100000x384_d1 p ⟨k.val - 128, by omega⟩ k
      (by show k.val = 128 + (k.val - 128); omega)
  · exact concat3_cols_third A B C concatenates_S100000x128_S100000x128_S100000x128_S100000x384_d1 p ⟨k.val - 256, by omega⟩ k
      (by show k.val = 128 + 128 + (k.val - 256); omega)

/-! ## The two dense layers -/

/-- The two dense layers with the rectifier between, on whole arrays, at `(p, j)`. -/
theorem dense_apply (u : FVec Ideal S100000x384 .f32) (P1 : FVec Ideal S384x128 .f32) (b1 : FVec Ideal S128 .f32)
    (P2 : FVec Ideal S128x128 .f32) (b2 : FVec Ideal S128 .f32) (p : Fin 100000) (j : Fin 128) :
    addf (Host.dotGeneral dot_S100000x128_S128x128_S100000x128_1_0_0_1_n_n none
          (maximumf (addf (Host.dotGeneral dot_S100000x384_S384x128_S100000x128_1_0_0_1_n_n none u P1)
              (broadcastInDim S100000x128 ![0, 1] bcast_S1x128_S100000x128_0_1 (broadcastInDim S1x128 ![1] bcast_S128_S1x128_1 b1)))
            (broadcastInDim S100000x128 ![] bcast_S_S100000x128 (constant (F := Ideal) S_ .f32 0x00000000#32))) P2)
        (broadcastInDim S100000x128 ![0, 1] bcast_S1x128_S100000x128_0_1 (broadcastInDim S1x128 ![1] bcast_S128_S1x128_1 b2)) (ix2 p j)
      = Sage.mlp (fun p q => u (ix2 p q)) (fun q k => P1 (ix2 q k)) (fun k => b1 (ix1 k)) (fun k j => P2 (ix2 k j))
          (fun j => b2 (ix1 j)) p j := by
  rw [addf_apply, prod128, bias_apply]
  unfold Sage.mlp
  refine congrArg₂ (· + ·) (Finset.sum_congr rfl fun k _ => ?_) rfl
  rw [maximumf_apply, addf_apply, prod384, bias_apply, zeros_apply]

/-! ## The whole reference -/

/-- Relation 0's layer of the reference at `(p, j)`. -/
theorem layer0_apply (x0 : FVec Ideal S100000x128 .f32) (x1 : (⟨S2x500000, .i32⟩ : BufTy).Contents (Elt Ideal)) (x4 : FVec Ideal S3x128x128 .f32)
    (x5 : FVec Ideal S3x128 .f32) (x6 : FVec Ideal S3x128x128 .f32) (p : Fin 100000) (j : Fin 128) :
    val_main_v34 (F := Ideal) x0 x1 x4 x5 x6 (ix2 p j)
      = Sage.rel (fun p k => x0 (ix2 p k)) (fun p k => val_main_v19 (F := Ideal) x0 x1 (ix2 p k)) (fun p => val_main_v23 (F := Ideal) x1 (ix1 p))
          (fun c j => x4 (ix3 (0 : Fin 3) c j)) (fun j => x5 (ix2 (0 : Fin 3) j)) (fun c j => x6 (ix3 (0 : Fin 3) c j)) p j := by
  refine (layer_apply x0 (val_main_v19 (F := Ideal) x0 x1) (val_main_v23 (F := Ideal) x1) (val_main_v1 (F := Ideal) x4) (val_main_v5 (F := Ideal) x6) (val_main_v3 (F := Ideal) x5) p j).trans ?_
  simp only [wl0, wr0, bl0]

/-- Relation 1's layer of the reference at `(p, j)`. -/
theorem layer1_apply (x0 : FVec Ideal S100000x128 .f32) (x2 : (⟨S2x500000, .i32⟩ : BufTy).Contents (Elt Ideal)) (x4 : FVec Ideal S3x128x128 .f32)
    (x5 : FVec Ideal S3x128 .f32) (x6 : FVec Ideal S3x128x128 .f32) (p : Fin 100000) (j : Fin 128) :
    val_main_v69 (F := Ideal) x0 x2 x4 x5 x6 (ix2 p j)
      = Sage.rel (fun p k => x0 (ix2 p k)) (fun p k => val_main_v54 (F := Ideal) x0 x2 (ix2 p k)) (fun p => val_main_v58 (F := Ideal) x2 (ix1 p))
          (fun c j => x4 (ix3 (1 : Fin 3) c j)) (fun j => x5 (ix2 (1 : Fin 3) j)) (fun c j => x6 (ix3 (1 : Fin 3) c j)) p j := by
  refine (layer_apply x0 (val_main_v54 (F := Ideal) x0 x2) (val_main_v58 (F := Ideal) x2) (val_main_v36 (F := Ideal) x4) (val_main_v40 (F := Ideal) x6) (val_main_v38 (F := Ideal) x5) p j).trans ?_
  simp only [wl1, wr1, bl1]

/-- Relation 2's layer of the reference at `(p, j)`. -/
theorem layer2_apply (x0 : FVec Ideal S100000x128 .f32) (x3 : (⟨S2x500000, .i32⟩ : BufTy).Contents (Elt Ideal)) (x4 : FVec Ideal S3x128x128 .f32)
    (x5 : FVec Ideal S3x128 .f32) (x6 : FVec Ideal S3x128x128 .f32) (p : Fin 100000) (j : Fin 128) :
    val_main_v104 (F := Ideal) x0 x3 x4 x5 x6 (ix2 p j)
      = Sage.rel (fun p k => x0 (ix2 p k)) (fun p k => val_main_v89 (F := Ideal) x0 x3 (ix2 p k)) (fun p => val_main_v93 (F := Ideal) x3 (ix1 p))
          (fun c j => x4 (ix3 (2 : Fin 3) c j)) (fun j => x5 (ix2 (2 : Fin 3) j)) (fun c j => x6 (ix3 (2 : Fin 3) c j)) p j := by
  refine (layer_apply x0 (val_main_v89 (F := Ideal) x0 x3) (val_main_v93 (F := Ideal) x3) (val_main_v71 (F := Ideal) x4) (val_main_v75 (F := Ideal) x6) (val_main_v73 (F := Ideal) x5) p j).trans ?_
  simp only [wl2, wr2, bl2]

/-- The reference's result at `(p, j)`: the summariser on the whole arrays — x, each relation's neighbour sums and
    counts (as the gather and the scatter-add leave them), the weights. -/
theorem result_apply (x0 : FVec Ideal S100000x128 .f32) (x1 x2 x3 : (⟨S2x500000, .i32⟩ : BufTy).Contents (Elt Ideal)) (x4 : FVec Ideal S3x128x128 .f32) (x5 : FVec Ideal S3x128 .f32) (x6 : FVec Ideal S3x128x128 .f32)
    (x7 : FVec Ideal S384x128 .f32) (x8 : FVec Ideal S128 .f32) (x9 : FVec Ideal S128x128 .f32) (x10 : FVec Ideal S128 .f32)
    (p : Fin 100000) (j : Fin 128) :
    val_main_v114 (F := Ideal) x0 x1 x2 x3 x4 x5 x6 x7 x8 x9 x10 (ix2 p j)
      = Sage.out (fun p k => x0 (ix2 p k)) (fun p k => val_main_v19 (F := Ideal) x0 x1 (ix2 p k))
          (fun p k => val_main_v54 (F := Ideal) x0 x2 (ix2 p k)) (fun p k => val_main_v89 (F := Ideal) x0 x3 (ix2 p k))
          (fun p => val_main_v23 (F := Ideal) x1 (ix1 p)) (fun p => val_main_v58 (F := Ideal) x2 (ix1 p))
          (fun p => val_main_v93 (F := Ideal) x3 (ix1 p))
          (fun r k j => x4 (ix3 r k j)) (fun r j => x5 (ix2 r j)) (fun r k j => x6 (ix3 r k j))
          (fun q k => x7 (ix2 q k)) (fun k => x8 (ix1 k)) (fun k j => x9 (ix2 k j)) (fun j => x10 (ix1 j)) p j := by
  refine (dense_apply (val_main_v105 (F := Ideal) x0 x1 x2 x3 x4 x5 x6) x7 x8 x9 x10 p j).trans ?_
  unfold Sage.out
  have hj : (fun p q => val_main_v105 (F := Ideal) x0 x1 x2 x3 x4 x5 x6 (ix2 p q))
      = Sage.joined
          (Sage.rel (fun p k => x0 (ix2 p k)) (fun p k => val_main_v19 (F := Ideal) x0 x1 (ix2 p k)) (fun p => val_main_v23 (F := Ideal) x1 (ix1 p))
            (fun c j => x4 (ix3 (0 : Fin 3) c j)) (fun j => x5 (ix2 (0 : Fin 3) j)) (fun c j => x6 (ix3 (0 : Fin 3) c j)))
          (Sage.rel (fun p k => x0 (ix2 p k)) (fun p k => val_main_v54 (F := Ideal) x0 x2 (ix2 p k)) (fun p => val_main_v58 (F := Ideal) x2 (ix1 p))
            (fun c j => x4 (ix3 (1 : Fin 3) c j)) (fun j => x5 (ix2 (1 : Fin 3) j)) (fun c j => x6 (ix3 (1 : Fin 3) c j)))
          (Sage.rel (fun p k => x0 (ix2 p k)) (fun p k => val_main_v89 (F := Ideal) x0 x3 (ix2 p k)) (fun p => val_main_v93 (F := Ideal) x3 (ix1 p))
            (fun c j => x4 (ix3 (2 : Fin 3) c j)) (fun j => x5 (ix2 (2 : Fin 3) j)) (fun c j => x6 (ix3 (2 : Fin 3) c j))) := by
    funext p q
    refine (joined_apply (val_main_v34 (F := Ideal) x0 x1 x4 x5 x6) (val_main_v69 (F := Ideal) x0 x2 x4 x5 x6)
      (val_main_v104 (F := Ideal) x0 x3 x4 x5 x6) p q).trans ?_
    have e0 := funext fun p => funext fun j => layer0_apply x0 x1 x4 x5 x6 p j
    have e1 := funext fun p => funext fun j => layer1_apply x0 x2 x4 x5 x6 p j
    have e2 := funext fun p => funext fun j => layer2_apply x0 x3 x4 x5 x6 p j
    rw [e0, e1, e2]
  rw [hj]

/-- The summariser on the argument arrays, as one array: x, each relation's neighbour sums and counts as the gather
    and the scatter-add leave them, the weights. -/
def value (x0 : FVec Ideal S100000x128 .f32) (x1 x2 x3 : (⟨S2x500000, .i32⟩ : BufTy).Contents (Elt Ideal))
    (x4 : FVec Ideal S3x128x128 .f32) (x5 : FVec Ideal S3x128 .f32) (x6 : FVec Ideal S3x128x128 .f32)
    (x7 : FVec Ideal S384x128 .f32) (x8 : FVec Ideal S128 .f32) (x9 : FVec Ideal S128x128 .f32) (x10 : FVec Ideal S128 .f32) : S100000x128.Idx → EReal :=
  fun i => Sage.out (fun p k => x0 (ix2 p k)) (fun p k => val_main_v19 (F := Ideal) x0 x1 (ix2 p k))
    (fun p k => val_main_v54 (F := Ideal) x0 x2 (ix2 p k)) (fun p k => val_main_v89 (F := Ideal) x0 x3 (ix2 p k))
    (fun p => val_main_v23 (F := Ideal) x1 (ix1 p)) (fun p => val_main_v58 (F := Ideal) x2 (ix1 p))
    (fun p => val_main_v93 (F := Ideal) x3 (ix1 p))
    (fun r k j => x4 (ix3 r k j)) (fun r j => x5 (ix2 r j)) (fun r k j => x6 (ix3 r k j))
    (fun q k => x7 (ix2 q k)) (fun k => x8 (ix1 k)) (fun k j => x9 (ix2 k j)) (fun j => x10 (ix1 j)) (i 0) (i 1)

/-- The reference's result is that array. -/
theorem result_eq (x0 : FVec Ideal S100000x128 .f32) (x1 x2 x3 : (⟨S2x500000, .i32⟩ : BufTy).Contents (Elt Ideal))
    (x4 : FVec Ideal S3x128x128 .f32) (x5 : FVec Ideal S3x128 .f32) (x6 : FVec Ideal S3x128x128 .f32)
    (x7 : FVec Ideal S384x128 .f32) (x8 : FVec Ideal S128 .f32) (x9 : FVec Ideal S128x128 .f32) (x10 : FVec Ideal S128 .f32) :
    val_main_v114 (F := Ideal) x0 x1 x2 x3 x4 x5 x6 x7 x8 x9 x10 = value x0 x1 x2 x3 x4 x5 x6 x7 x8 x9 x10 := by
  funext i
  obtain ⟨p, j, rfl⟩ : ∃ (p : Fin 100000) (j : Fin 128), i = ix2 p j := ⟨i 0, i 1, eq_ix2 i⟩
  exact result_apply x0 x1 x2 x3 x4 x5 x6 x7 x8 x9 x10 p j

end Cert.ReferenceIdeal.RefValue

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KernelValue.lean ====
/-
  The kernel's result as one array of the arguments.

  The region finds x, the bias table and the two bias vectors as launched, the neighbour sums and counts as the
  reference computes them (the counts as one column each), and the four weight arrays narrowed, which on the extended
  reals is no change. So the output array ends holding the summariser on the argument arrays — the same array the
  reference's result is.
-/
import proofs.«175074_j798863917140_2_alg».proof.Proof.KernelArray
import proofs.«175074_j798863917140_2_alg».proof.Proof.HostPrelude
import proofs.«175074_j798863917140_2_alg».proof.Proof.RefValue
import proofs.«175074_j798863917140_2_alg».proof.Proof.LibColumnCast

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The summariser on the arrays as the region finds them is the summariser on the argument arrays. -/
theorem whole_eq (c : Dev nD) :
    whole (V m c main_arg0) (V m c main_v13) (V m c main_v32) (V m c main_v51) (V m c main_v18) (V m c main_v37) (V m c main_v56) (V m c main_v57) (V m c main_arg5) (V m c main_v58) (V m c main_v59) (V m c main_arg8) (V m c main_v60) (V m c main_arg10)
      = Cert.ReferenceIdeal.RefValue.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  exact out_congr
    (fun p k => congrFun (V_main_arg0 m c) (ix2 p k))
    (fun p k => congrFun (Prelude.sums0 m c) (ix2 p k))
    (fun p k => congrFun (Prelude.sums1 m c) (ix2 p k))
    (fun p k => congrFun (Prelude.sums2 m c) (ix2 p k))
    (fun p => (congrFun (Prelude.counts0 m c) (ix2 p (0 : Fin 1))).trans (shapeCast_a_a1_apply _ shapeCasts_S100000_S100000x1 p 0))
    (fun p => (congrFun (Prelude.counts1 m c) (ix2 p (0 : Fin 1))).trans (shapeCast_a_a1_apply _ shapeCasts_S100000_S100000x1 p 0))
    (fun p => (congrFun (Prelude.counts2 m c) (ix2 p (0 : Fin 1))).trans (shapeCast_a_a1_apply _ shapeCasts_S100000_S100000x1 p 0))
    (fun r k j => Prelude.weights_l m c (ix3 r k j))
    (fun r j => congrFun (V_main_arg5 m c) (ix2 r j))
    (fun r k j => Prelude.weights_r m c (ix3 r k j))
    (fun q k => Prelude.weights_1 m c (ix2 q k))
    (fun k => congrFun (V_main_arg8 m c) (ix1 k))
    (fun k j => Prelude.weights_2 m c (ix2 k j))
    (fun j => congrFun (V_main_arg10 m c) (ix1 j))
    (i 0) (i 1)

/-- The kernel's run: the result array ends at the summariser on the argument arrays, the arguments unchanged. -/
theorem run : θ_run defs (onTc (τ := τ) (main (F := Ideal))) ⟨m, fun _ => 0, ρ⟩ fun r => ∀ c : Dev nD,
      r.2.mem ((c : Thread nD τ).loc main_v61) = Cert.ReferenceIdeal.RefValue.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (whole_eq m c)), (h c).2⟩)
    (Cert.KernelIdeal.Value.run_blocks m ρ)

end Cert.KernelIdeal.Whole

end
-- ==== Proof.lean ====
/-
  A fused relation summariser against its array-at-a-time reference, over the extended reals.

  Both programs compute, for each of three relations, the mean of a node's in-neighbours' feature rows (the neighbour
  sums over max(count, 1)), send it and the node's own row through the relation's two 128 × 128 weight matrices, add
  the bias, lay the three results side by side, and apply two dense layers with a rectifier between. The reference
  does this on whole 100000-row arrays. The kernel's program computes the neighbour sums and counts as the reference
  does and hands them, with x and the weights, to a kernel that works on blocks of 2000 rows: it narrows its operands
  to a shorter float format before each product, which on the extended reals is the identity, and its products into
  an accumulator of zeros are the same finite sums as the reference's. Row p of the result depends on row p of x, of
  the sums and of the counts only, so each block of the kernel's output is that block of ONE array, and the 50 blocks
  tile it. No law that needs finite entries is used: both sides are the same expression, operation by operation.
-/
import proofs.«175074_j798863917140_2_alg».proof.Defs
import proofs.«175074_j798863917140_2_alg».proof.Proof.Gen.Kernel
import proofs.«175074_j798863917140_2_alg».proof.Proof.Gen.Kernel.Skeleton
import proofs.«175074_j798863917140_2_alg».proof.Proof.Gen.Kernel.Launch
import proofs.«175074_j798863917140_2_alg».proof.Proof.Gen.Kernel.Points
import proofs.«175074_j798863917140_2_alg».proof.Proof.Gen.Kernel.Frame
import proofs.«175074_j798863917140_2_alg».proof.Proof.Gen.KernelIdeal
import proofs.«175074_j798863917140_2_alg».proof.Proof.Gen.KernelIdeal.Skeleton
import proofs.«175074_j798863917140_2_alg».proof.Proof.Gen.KernelIdeal.Launch
import proofs.«175074_j798863917140_2_alg».proof.Proof.Gen.KernelIdeal.Points
import proofs.«175074_j798863917140_2_alg».proof.Proof.Gen.KernelIdeal.Frame
import proofs.«175074_j798863917140_2_alg».proof.Proof.Gen.ReferenceIdeal
import proofs.«175074_j798863917140_2_alg».proof.Proof.Gen.Pre_finite_inputs
import proofs.«175074_j798863917140_2_alg».proof.Proof.Gen.KernelIdeal.Value
import proofs.«175074_j798863917140_2_alg».proof.Proof.Gen.ReferenceIdeal.Run
import proofs.«175074_j798863917140_2_alg».proof.Proof.Gen.ReferenceIdeal.Read
import proofs.«175074_j798863917140_2_alg».proof.Proof.KernelValue
import proofs.«175074_j798863917140_2_alg».proof.Proof.RefValue
import Idealize.ShloMosaic.Adequacy
import Idealize.ShloMosaic.Init

noncomputable section

namespace Cert.Proof

open Idealize.ShloMosaic Idealize.SL.Sem Cert.Kernel

/-- The word-level kernel's program runs and leaves its arguments as they were. -/
theorem frame_kernel : Cert.frame_Kernel := fun m ρ _ => Cert.Kernel.Gen.frame m ρ

/-- So does the kernel's program read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel's program was printed for the extended reals. -/
theorem preserves : Cert.preserves_Kernel_KernelIdeal := trivial

/-- From memories agreeing on the arguments both programs end with the summariser on the argument arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v114_eq, Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
